-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5x65536x38 : Shape := ⟨3, ![5, 65536, 38]⟩
abbrev S5x38x200 : Shape := ⟨3, ![5, 38, 200]⟩
abbrev S5x1x200 : Shape := ⟨3, ![5, 1, 200]⟩
abbrev S5x200x200 : Shape := ⟨3, ![5, 200, 200]⟩
abbrev S5x200x62 : Shape := ⟨3, ![5, 200, 62]⟩
abbrev S5x1x62 : Shape := ⟨3, ![5, 1, 62]⟩
abbrev S1x31 : Shape := ⟨2, ![1, 31]⟩
abbrev S_ : Shape := ⟨0, ![]⟩

class Facts : Prop where
  bcast_S_S5x65536x38 : S_.BroadcastsInDim S5x65536x38 (![] : Fin 0 → Fin S5x65536x38.rank)
  reducesTo_S5x65536x38_S_d0_1_2 : S5x65536x38.ReducesTo [0, 1, 2] S_
  h_S_ : 0 < S_.numel
  bcast_S_S5x38x200 : S_.BroadcastsInDim S5x38x200 (![] : Fin 0 → Fin S5x38x200.rank)
  reducesTo_S5x38x200_S_d0_1_2 : S5x38x200.ReducesTo [0, 1, 2] S_
  bcast_S_S5x1x200 : S_.BroadcastsInDim S5x1x200 (![] : Fin 0 → Fin S5x1x200.rank)
  reducesTo_S5x1x200_S_d0_1_2 : S5x1x200.ReducesTo [0, 1, 2] S_
  bcast_S_S5x200x200 : S_.BroadcastsInDim S5x200x200 (![] : Fin 0 → Fin S5x200x200.rank)
  reducesTo_S5x200x200_S_d0_1_2 : S5x200x200.ReducesTo [0, 1, 2] S_
  bcast_S_S5x200x62 : S_.BroadcastsInDim S5x200x62 (![] : Fin 0 → Fin S5x200x62.rank)
  reducesTo_S5x200x62_S_d0_1_2 : S5x200x62.ReducesTo [0, 1, 2] S_
  bcast_S_S5x1x62 : S_.BroadcastsInDim S5x1x62 (![] : Fin 0 → Fin S5x1x62.rank)
  reducesTo_S5x1x62_S_d0_1_2 : S5x1x62.ReducesTo [0, 1, 2] S_
  bcast_S_S1x31 : S_.BroadcastsInDim S1x31 (![] : Fin 0 → Fin S1x31.rank)
  reducesTo_S1x31_S_d0_1 : S1x31.ReducesTo [0, 1] S_

variable [Facts]

def fn_part3 {F : FTy → Type} [FloatOps F] (main_arg11 : FVec F S1x31 .f32) (main_arg12 : FVec F S1x31 .f32) (main_v48 : IVec S_ 1) (main_v49 : FVec F S5x1x62 .f32) (main_v50 : FVec F S5x1x62 .f32) : IVec S_ 1 :=
  let main_v51 : IVec S5x1x62 1 := cmpf .olt main_v49 main_v50
  let main_c_19 : IVec S_ 1 := constantI S_ 1 1#1
  let main_v52 : IVec S_ 1 := (fun x v => Host.reduce IntOp.andi x v reducesTo_S5x1x62_S_d0_1_2 h_S_) main_v51 main_c_19
  let main_v53 : IVec S_ 1 := andi main_v48 main_v52
  let main_v54 : FVec F S1x31 .f32 := Host.absf main_arg11
  let main_cst_20 : FVec F S_ .f32 := constant S_ .f32 0x7F800000#32
  let main_v55 : FVec F S1x31 .f32 := broadcastInDim S1x31 ![] bcast_S_S1x31 main_cst_20
  let main_v56 : IVec S1x31 1 := cmpf .olt main_v54 main_v55
  let main_c_21 : IVec S_ 1 := constantI S_ 1 1#1
  let main_v57 : IVec S_ 1 := (fun x v => Host.reduce IntOp.andi x v reducesTo_S1x31_S_d0_1 h_S_) main_v56 main_c_21
  let main_v58 : IVec S_ 1 := andi main_v53 main_v57
  let main_v59 : FVec F S1x31 .f32 := Host.absf main_arg12
  let main_cst_22 : FVec F S_ .f32 := constant S_ .f32 0x7F800000#32
  let main_v60 : FVec F S1x31 .f32 := broadcastInDim S1x31 ![] bcast_S_S1x31 main_cst_22
  let main_v61 : IVec S1x31 1 := cmpf .olt main_v59 main_v60
  let main_c_23 : IVec S_ 1 := constantI S_ 1 1#1
  let main_v62 : IVec S_ 1 := (fun x v => Host.reduce IntOp.andi x v reducesTo_S1x31_S_d0_1 h_S_) main_v61 main_c_23
  let main_v63 : IVec S_ 1 := andi main_v58 main_v62
  main_v63

def fn_part2 {F : FTy → Type} [FloatOps F] (main_arg7 : FVec F S5x200x200 .f32) (main_arg8 : FVec F S5x1x200 .f32) (main_arg9 : FVec F S5x200x62 .f32) (main_arg10 : FVec F S5x1x62 .f32) (main_arg11 : FVec F S1x31 .f32) (main_arg12 : FVec F S1x31 .f32) (main_v33 : IVec S_ 1) : IVec S_ 1 :=
  let main_v34 : FVec F S5x200x200 .f32 := Host.absf main_arg7
  let main_cst_12 : FVec F S_ .f32 := constant S_ .f32 0x7F800000#32
  let main_v35 : FVec F S5x200x200 .f32 := broadcastInDim S5x200x200 ![] bcast_S_S5x200x200 main_cst_12
  let main_v36 : IVec S5x200x200 1 := cmpf .olt main_v34 main_v35
  let main_c_13 : IVec S_ 1 := constantI S_ 1 1#1
  let main_v37 : IVec S_ 1 := (fun x v => Host.reduce IntOp.andi x v reducesTo_S5x200x200_S_d0_1_2 h_S_) main_v36 main_c_13
  let main_v38 : IVec S_ 1 := andi main_v33 main_v37
  let main_v39 : FVec F S5x1x200 .f32 := Host.absf main_arg8
  let main_cst_14 : FVec F S_ .f32 := constant S_ .f32 0x7F800000#32
  let main_v40 : FVec F S5x1x200 .f32 := broadcastInDim S5x1x200 ![] bcast_S_S5x1x200 main_cst_14
  let main_v41 : IVec S5x1x200 1 := cmpf .olt main_v39 main_v40
  let main_c_15 : IVec S_ 1 := constantI S_ 1 1#1
  let main_v42 : IVec S_ 1 := (fun x v => Host.reduce IntOp.andi x v reducesTo_S5x1x200_S_d0_1_2 h_S_) main_v41 main_c_15
  let main_v43 : IVec S_ 1 := andi main_v38 main_v42
  let main_v44 : FVec F S5x200x62 .f32 := Host.absf main_arg9
  let main_cst_16 : FVec F S_ .f32 := constant S_ .f32 0x7F800000#32
  let main_v45 : FVec F S5x200x62 .f32 := broadcastInDim S5x200x62 ![] bcast_S_S5x200x62 main_cst_16
  let main_v46 : IVec S5x200x62 1 := cmpf .olt main_v44 main_v45
  let main_c_17 : IVec S_ 1 := constantI S_ 1 1#1
  let main_v47 : IVec S_ 1 := (fun x v => Host.reduce IntOp.andi x v reducesTo_S5x200x62_S_d0_1_2 h_S_) main_v46 main_c_17
  let main_v48 : IVec S_ 1 := andi main_v43 main_v47
  let main_v49 : FVec F S5x1x62 .f32 := Host.absf main_arg10
  let main_cst_18 : FVec F S_ .f32 := constant S_ .f32 0x7F800000#32
  let main_v50 : FVec F S5x1x62 .f32 := broadcastInDim S5x1x62 ![] bcast_S_S5x1x62 main_cst_18
  fn_part3 (F := F) main_arg11 main_arg12 main_v48 main_v49 main_v50

def fn_part1 {F : FTy → Type} [FloatOps F] (main_arg4 : FVec F S5x1x200 .f32) (main_arg5 : FVec F S5x200x200 .f32) (main_arg6 : FVec F S5x1x200 .f32) (main_arg7 : FVec F S5x200x200 .f32) (main_arg8 : FVec F S5x1x200 .f32) (main_arg9 : FVec F S5x200x62 .f32) (main_arg10 : FVec F S5x1x62 .f32) (main_arg11 : FVec F S1x31 .f32) (main_arg12 : FVec F S1x31 .f32) (main_v13 : IVec S_ 1) (main_v16 : IVec S5x200x200 1) : IVec S_ 1 :=
  let main_c_5 : IVec S_ 1 := constantI S_ 1 1#1
  let main_v17 : IVec S_ 1 := (fun x v => Host.reduce IntOp.andi x v reducesTo_S5x200x200_S_d0_1_2 h_S_) main_v16 main_c_5
  let main_v18 : IVec S_ 1 := andi main_v13 main_v17
  let main_v19 : FVec F S5x1x200 .f32 := Host.absf main_arg4
  let main_cst_6 : FVec F S_ .f32 := constant S_ .f32 0x7F800000#32
  let main_v20 : FVec F S5x1x200 .f32 := broadcastInDim S5x1x200 ![] bcast_S_S5x1x200 main_cst_6
  let main_v21 : IVec S5x1x200 1 := cmpf .olt main_v19 main_v20
  let main_c_7 : IVec S_ 1 := constantI S_ 1 1#1
  let main_v22 : IVec S_ 1 := (fun x v => Host.reduce IntOp.andi x v reducesTo_S5x1x200_S_d0_1_2 h_S_) main_v21 main_c_7
  let main_v23 : IVec S_ 1 := andi main_v18 main_v22
  let main_v24 : FVec F S5x200x200 .f32 := Host.absf main_arg5
  let main_cst_8 : FVec F S_ .f32 := constant S_ .f32 0x7F800000#32
  let main_v25 : FVec F S5x200x200 .f32 := broadcastInDim S5x200x200 ![] bcast_S_S5x200x200 main_cst_8
  let main_v26 : IVec S5x200x200 1 := cmpf .olt main_v24 main_v25
  let main_c_9 : IVec S_ 1 := constantI S_ 1 1#1
  let main_v27 : IVec S_ 1 := (fun x v => Host.reduce IntOp.andi x v reducesTo_S5x200x200_S_d0_1_2 h_S_) main_v26 main_c_9
  let main_v28 : IVec S_ 1 := andi main_v23 main_v27
  let main_v29 : FVec F S5x1x200 .f32 := Host.absf main_arg6
  let main_cst_10 : FVec F S_ .f32 := constant S_ .f32 0x7F800000#32
  let main_v30 : FVec F S5x1x200 .f32 := broadcastInDim S5x1x200 ![] bcast_S_S5x1x200 main_cst_10
  let main_v31 : IVec S5x1x200 1 := cmpf .olt main_v29 main_v30
  let main_c_11 : IVec S_ 1 := constantI S_ 1 1#1
  let main_v32 : IVec S_ 1 := (fun x v => Host.reduce IntOp.andi x v reducesTo_S5x1x200_S_d0_1_2 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S5x65536x38 .f32) (main_arg1 : FVec F S5x38x200 .f32) (main_arg2 : FVec F S5x1x200 .f32) (main_arg3 : FVec F S5x200x200 .f32) (main_arg4 : FVec F S5x1x200 .f32) (main_arg5 : FVec F S5x200x200 .f32) (main_arg6 : FVec F S5x1x200 .f32) (main_arg7 : FVec F S5x200x200 .f32) (main_arg8 : FVec F S5x1x200 .f32) (main_arg9 : FVec F S5x200x62 .f32) (main_arg10 : FVec F S5x1x62 .f32) (main_arg11 : FVec F S1x31 .f32) (main_arg12 : FVec F S1x31 .f32) : IVec S_ 1 :=
  let main_v0 : FVec F S5x65536x38 .f32 := Host.absf main_arg0
  let main_cst : FVec F S_ .f32 := constant S_ .f32 0x7F800000#32
  let main_v1 : FVec F S5x65536x38 .f32 := broadcastInDim S5x65536x38 ![] bcast_S_S5x65536x38 main_cst
  let main_v2 : IVec S5x65536x38 1 := cmpf .olt main_v0 main_v1
  let main_c : IVec S_ 1 := constantI S_ 1 1#1
  let main_v3 : IVec S_ 1 := (fun x v => Host.reduce IntOp.andi x v reducesTo_S5x65536x38_S_d0_1_2 h_S_) main_v2 main_c
  let main_v4 : FVec F S5x38x200 .f32 := Host.absf main_arg1
  let main_cst_0 : FVec F S_ .f32 := constant S_ .f32 0x7F800000#32
  let main_v5 : FVec F S5x38x200 .f32 := broadcastInDim S5x38x200 ![] bcast_S_S5x38x200 main_cst_0
  let main_v6 : IVec S5x38x200 1 := cmpf .olt main_v4 main_v5
  let main_c_1 : IVec S_ 1 := constantI S_ 1 1#1
  let main_v7 : IVec S_ 1 := (fun x v => Host.reduce IntOp.andi x v reducesTo_S5x38x200_S_d0_1_2 h_S_) main_v6 main_c_1
  let main_v8 : IVec S_ 1 := andi main_v3 main_v7
  let main_v9 : FVec F S5x1x200 .f32 := Host.absf main_arg2
  let main_cst_2 : FVec F S_ .f32 := constant S_ .f32 0x7F800000#32
  let main_v10 : FVec F S5x1x200 .f32 := broadcastInDim S5x1x200 ![] bcast_S_S5x1x200 main_cst_2
  let main_v11 : IVec S5x1x200 1 := cmpf .olt main_v9 main_v10
  let main_c_3 : IVec S_ 1 := constantI S_ 1 1#1
  let main_v12 : IVec S_ 1 := (fun x v => Host.reduce IntOp.andi x v reducesTo_S5x1x200_S_d0_1_2 h_S_) main_v11 main_c_3
  let main_v13 : IVec S_ 1 := andi main_v8 main_v12
  let main_v14 : FVec F S5x200x200 .f32 := Host.absf main_arg3
  let main_cst_4 : FVec F S_ .f32 := constant S_ .f32 0x7F800000#32
  let main_v15 : FVec F S5x200x200 .f32 := broadcastInDim S5x200x200 ![] bcast_S_S5x200x200 main_cst_4
  let main_v16 : IVec S5x200x200 1 := cmpf .olt main_v14 main_v15
  fn_part1 (F := F) main_arg4 main_arg5 main_arg6 main_arg7 main_arg8 main_arg9 main_arg10 main_arg11 main_arg12 main_v13 main_v16
-- ==== Kernel.lean ====
abbrev S5x65536x38 : Shape := ⟨3, ![5, 65536, 38]⟩
abbrev S5x38x200 : Shape := ⟨3, ![5, 38, 200]⟩
abbrev S5x1x200 : Shape := ⟨3, ![5, 1, 200]⟩
abbrev S5x200x200 : Shape := ⟨3, ![5, 200, 200]⟩
abbrev S5x200x62 : Shape := ⟨3, ![5, 200, 62]⟩
abbrev S5x1x62 : Shape := ⟨3, ![5, 1, 62]⟩
abbrev S1x31 : Shape := ⟨2, ![1, 31]⟩
abbrev S5x65536x31 : Shape := ⟨3, ![5, 65536, 31]⟩
abbrev S1x4096x38 : Shape := ⟨3, ![1, 4096, 38]⟩
abbrev S1x38x200 : Shape := ⟨3, ![1, 38, 200]⟩
abbrev S1x1x200 : Shape := ⟨3, ![1, 1, 200]⟩
abbrev S1x200x200 : Shape := ⟨3, ![1, 200, 200]⟩
abbrev S1x200x62 : Shape := ⟨3, ![1, 200, 62]⟩
abbrev S1x1x62 : Shape := ⟨3, ![1, 1, 62]⟩
abbrev S1x4096x31 : Shape := ⟨3, ![1, 4096, 31]⟩
abbrev S4096x38 : Shape := ⟨2, ![4096, 38]⟩
abbrev S38x200 : Shape := ⟨2, ![38, 200]⟩
abbrev S4096x200 : Shape := ⟨2, ![4096, 200]⟩
abbrev S1x200 : Shape := ⟨2, ![1, 200]⟩
abbrev S200x200 : Shape := ⟨2, ![200, 200]⟩
abbrev S200x62 : Shape := ⟨2, ![200, 62]⟩
abbrev S4096x62 : Shape := ⟨2, ![4096, 62]⟩
abbrev S1x62 : Shape := ⟨2, ![1, 62]⟩
abbrev S4096x31 : Shape := ⟨2, ![4096, 31]⟩

abbrev nBuf : Space → Nat
  | .hbm => 20
  | .vmem => 28
  | .smem => 0
  | _ => 0

abbrev bufTy : (tb : Table) → Fin (tcTables nBuf tb) → BufTy
  | .hbm, ⟨0, _⟩ => ⟨S5x65536x38, .f32⟩
  | .hbm, ⟨1, _⟩ => ⟨S5x38x200, .f32⟩
  | .hbm, ⟨2, _⟩ => ⟨S5x1x200, .f32⟩
  | .hbm, ⟨3, _⟩ => ⟨S5x200x200, .f32⟩
  | .hbm, ⟨4, _⟩ => ⟨S5x1x200, .f32⟩
  | .hbm, ⟨5, _⟩ => ⟨S5x200x200, .f32⟩
  | .hbm, ⟨6, _⟩ => ⟨S5x1x200, .f32⟩
  | .hbm, ⟨7, _⟩ => ⟨S5x200x200, .f32⟩
  | .hbm, ⟨8, _⟩ => ⟨S5x1x200, .f32⟩
  | .hbm, ⟨9, _⟩ => ⟨S5x200x62, .f32⟩
  | .hbm, ⟨10, _⟩ => ⟨S5x1x62, .f32⟩
  | .hbm, ⟨11, _⟩ => ⟨S1x31, .f32⟩
  | .hbm, ⟨12, _⟩ => ⟨S1x31, .f32⟩
  | .hbm, ⟨13, _⟩ => ⟨S5x38x200, .bf16⟩
  | .hbm, ⟨14, _⟩ => ⟨S5x200x200, .bf16⟩
  | .hbm, ⟨15, _⟩ => ⟨S5x200x200, .bf16⟩
  | .hbm, ⟨16, _⟩ => ⟨S5x200x200, .bf16⟩
  | .hbm, ⟨17, _⟩ => ⟨S5x200x62, .bf16⟩
  | .hbm, ⟨18, _⟩ => ⟨S5x65536x31, .f32⟩
  | .hbm, ⟨19, _⟩ => ⟨S5x65536x31, .f32⟩
  | .local _ .vmem, ⟨0, _⟩ => ⟨S1x4096x38, .f32⟩
  | .local _ .vmem, ⟨1, _⟩ => ⟨S1x4096x38, .f32⟩
  | .local _ .vmem, ⟨2, _⟩ => ⟨S1x38x200, .bf16⟩
  | .local _ .vmem, ⟨3, _⟩ => ⟨S1x38x200, .bf16⟩
  | .local _ .vmem, ⟨4, _⟩ => ⟨S1x1x200, .f32⟩
  | .local _ .vmem, ⟨5, _⟩ => ⟨S1x1x200, .f32⟩
  | .local _ .vmem, ⟨6, _⟩ => ⟨S1x200x200, .bf16⟩
  | .local _ .vmem, ⟨7, _⟩ => ⟨S1x200x200, .bf16⟩
  | .local _ .vmem, ⟨8, _⟩ => ⟨S1x1x200, .f32⟩
  | .local _ .vmem, ⟨9, _⟩ => ⟨S1x1x200, .f32⟩
  | .local _ .vmem, ⟨10, _⟩ => ⟨S1x200x200, .bf16⟩
  | .local _ .vmem, ⟨11, _⟩ => ⟨S1x200x200, .bf16⟩
  | .local _ .vmem, ⟨12, _⟩ => ⟨S1x1x200, .f32⟩
  | .local _ .vmem, ⟨13, _⟩ => ⟨S1x1x200, .f32⟩
  | .local _ .vmem, ⟨14, _⟩ => ⟨S1x200x200, .bf16⟩
  | .local _ .vmem, ⟨15, _⟩ => ⟨S1x200x200, .bf16⟩
  | .local _ .vmem, ⟨16, _⟩ => ⟨S1x1x200, .f32⟩
  | .local _ .vmem, ⟨17, _⟩ => ⟨S1x1x200, .f32⟩
  | .local _ .vmem, ⟨18, _⟩ => ⟨S1x200x62, .bf16⟩
  | .local _ .vmem, ⟨19, _⟩ => ⟨S1x200x62, .bf16⟩
  | .local _ .vmem, ⟨20, _⟩ => ⟨S1x1x62, .f32⟩
  | .local _ .vmem, ⟨21, _⟩ => ⟨S1x1x62, .f32⟩
  | .local _ .vmem, ⟨22, _⟩ => ⟨S1x31, .f32⟩
  | .local _ .vmem, ⟨23, _⟩ => ⟨S1x31, .f32⟩
  | .local _ .vmem, ⟨24, _⟩ => ⟨S1x4096x31, .f32⟩
  | .local _ .vmem, ⟨25, _⟩ => ⟨S1x4096x31, .f32⟩
  | .local _ .vmem, ⟨26, _⟩ => ⟨S1x4096x31, .f32⟩
  | .local _ .vmem, ⟨27, _⟩ => ⟨S1x4096x31, .f32⟩
  | _, _ => ⟨S5x65536x38, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![5, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x38 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x38x200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x200x200 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x200x200 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x200 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x200x200 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x200 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x200x62 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x62 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x31 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x31 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x4096x31 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4096x31 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  bitsLt_bf16_f32 : FTy.bits .bf16 < FTy.bits .f32
  inb_S1x4096x38_S1x4096x38_0_0_0 : ∀ a, (![0, 0, 0] : Fin 3 → Nat) a + S1x4096x38.size a ≤ S1x4096x38.size a
  h_S1x4096x38 : 0 < S1x4096x38.numel
  shapeCasts_S1x4096x38_S4096x38 : S1x4096x38.ShapeCasts S4096x38
  inb_S1x38x200_S1x38x200_0_0_0 : ∀ a, (![0, 0, 0] : Fin 3 → Nat) a + S1x38x200.size a ≤ S1x38x200.size a
  h_S1x38x200 : 0 < S1x38x200.numel
  shapeCasts_S1x38x200_S38x200 : S1x38x200.ShapeCasts S38x200
  inb_S1x1x200_S1x1x200_0_0_0 : ∀ a, (![0, 0, 0] : Fin 3 → Nat) a + S1x1x200.size a ≤ S1x1x200.size a
  h_S1x1x200 : 0 < S1x1x200.numel
  shapeCasts_S1x1x200_S1x200 : S1x1x200.ShapeCasts S1x200
  broadcasts_S1x200_S4096x200 : S1x200.Broadcasts S4096x200
  inb_S1x200x200_S1x200x200_0_0_0 : ∀ a, (![0, 0, 0] : Fin 3 → Nat) a + S1x200x200.size a ≤ S1x200x200.size a
  h_S1x200x200 : 0 < S1x200x200.numel
  shapeCasts_S1x200x200_S200x200 : S1x200x200.ShapeCasts S200x200
  inb_S1x200x62_S1x200x62_0_0_0 : ∀ a, (![0, 0, 0] : Fin 3 → Nat) a + S1x200x62.size a ≤ S1x200x62.size a
  h_S1x200x62 : 0 < S1x200x62.numel
  shapeCasts_S1x200x62_S200x62 : S1x200x62.ShapeCasts S200x62
  inb_S1x1x62_S1x1x62_0_0_0 : ∀ a, (![0, 0, 0] : Fin 3 → Nat) a + S1x1x62.size a ≤ S1x1x62.size a
  h_S1x1x62 : 0 < S1x1x62.numel
  shapeCasts_S1x1x62_S1x62 : S1x1x62.ShapeCasts S1x62
  broadcasts_S1x62_S4096x62 : S1x62.Broadcasts S4096x62
  slices_S4096x62_o0_0_S4096x31 : S4096x62.Slices ![0, 0] S4096x31
  slices_S4096x62_o0_31_S4096x31 : S4096x62.Slices ![0, 31] S4096x31
  inb_S1x31_S1x31_0_0 : ∀ a, (![0, 0] : Fin 2 → Nat) a + S1x31.size a ≤ S1x31.size a
  h_S1x31 : 0 < S1x31.numel
  broadcasts_S1x31_S4096x31 : S1x31.Broadcasts S4096x31
  inb_S1x4096x31_S1x4096x31_0_0_0 : ∀ a, (![0, 0, 0] : Fin 3 → Nat) a + S1x4096x31.size a ≤ S1x4096x31.size a
  h_S1x4096x31 : 0 < S1x4096x31.numel
  shapeCasts_S1x4096x31_S4096x31 : S1x4096x31.ShapeCasts S4096x31
  shapeCasts_S4096x31_S1x4096x31 : S4096x31.ShapeCasts S1x4096x31
  dot_S4096x38_S38x200_S4096x200_1_0_0_1_n_n_wf : DotDims.WF S4096x38 S38x200 S4096x200 [1] [0] [0] [1] [] []
  dot_S4096x200_S200x200_S4096x200_1_0_0_1_n_n_wf : DotDims.WF S4096x200 S200x200 S4096x200 [1] [0] [0] [1] [] []
  dot_S4096x200_S200x62_S4096x62_1_0_0_1_n_n_wf : DotDims.WF S4096x200 S200x62 S4096x62 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x38.size a ≤ S5x65536x38.size a
  hwx0_0 : ∀ i : grid0.Coords, EltTy.bits .f32 = 32 ∨ (Rect.block (s := S5x65536x38) S1x4096x38.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x38x200.size a ≤ S5x38x200.size a
  hwx0_1 : ∀ i : grid0.Coords, EltTy.bits .bf16 = 32 ∨ (Rect.block (s := S5x38x200) S1x38x200.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x200.size a ≤ S5x1x200.size a
  hwx0_2 : ∀ i : grid0.Coords, EltTy.bits .f32 = 32 ∨ (Rect.block (s := S5x1x200) S1x1x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x200x200.size a ≤ S5x200x200.size a
  hwx0_3 : ∀ i : grid0.Coords, EltTy.bits .bf16 = 32 ∨ (Rect.block (s := S5x200x200) S1x200x200.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x200.size a ≤ S5x1x200.size a
  hwx0_4 : ∀ i : grid0.Coords, EltTy.bits .f32 = 32 ∨ (Rect.block (s := S5x1x200) S1x1x200.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x200x200.size a ≤ S5x200x200.size a
  hwx0_5 : ∀ i : grid0.Coords, EltTy.bits .bf16 = 32 ∨ (Rect.block (s := S5x200x200) S1x200x200.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x200.size a ≤ S5x1x200.size a
  hwx0_6 : ∀ i : grid0.Coords, EltTy.bits .f32 = 32 ∨ (Rect.block (s := S5x1x200) S1x1x200.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x200x200.size a ≤ S5x200x200.size a
  hwx0_7 : ∀ i : grid0.Coords, EltTy.bits .bf16 = 32 ∨ (Rect.block (s := S5x200x200) S1x200x200.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x200.size a ≤ S5x1x200.size a
  hwx0_8 : ∀ i : grid0.Coords, EltTy.bits .f32 = 32 ∨ (Rect.block (s := S5x1x200) S1x1x200.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x200x62.size a ≤ S5x200x62.size a
  hwx0_9 : ∀ i : grid0.Coords, EltTy.bits .bf16 = 32 ∨ (Rect.block (s := S5x200x62) S1x200x62.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x62.size a ≤ S5x1x62.size a
  hwx0_10 : ∀ i : grid0.Coords, EltTy.bits .f32 = 32 ∨ (Rect.block (s := S5x1x62) S1x1x62.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x31.size a ≤ S1x31.size a
  hwx0_11 : ∀ i : grid0.Coords, EltTy.bits .f32 = 32 ∨ (Rect.block (s := S1x31) S1x31.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x31.size a ≤ S1x31.size a
  hwx0_12 : ∀ i : grid0.Coords, EltTy.bits .f32 = 32 ∨ (Rect.block (s := S1x31) S1x31.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x4096x31.size a ≤ S5x65536x31.size a
  hwx0_13 : ∀ i : grid0.Coords, EltTy.bits .f32 = 32 ∨ (Rect.block (s := S5x65536x31) S1x4096x31.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x4096x31.size a ≤ S5x65536x31.size a
  hwx0_14 : ∀ i : grid0.Coords, EltTy.bits .f32 = 32 ∨ (Rect.block (s := S5x65536x31) S1x4096x31.size (cc0_transform_14 i) (hinb0_14 i)).WholeWords (EltTy.packing .f32)

variable [Facts₀]

def dot_S4096x38_S38x200_S4096x200_1_0_0_1_n_n : DotDims S4096x38 S38x200 S4096x200 where
  lhsContracting := [1]
  rhsContracting := [0]
  lhsNonContracting := [0]
  rhsNonContracting := [1]
  lhsBatch := []
  rhsBatch := []
  wf := dot_S4096x38_S38x200_S4096x200_1_0_0_1_n_n_wf
def dot_S4096x200_S200x200_S4096x200_1_0_0_1_n_n : DotDims S4096x200 S200x200 S4096x200 where
  lhsContracting := [1]
  rhsContracting := [0]
  lhsNonContracting := [0]
  rhsNonContracting := [1]
  lhsBatch := []
  rhsBatch := []
  wf := dot_S4096x200_S200x200_S4096x200_1_0_0_1_n_n_wf
def dot_S4096x200_S200x62_S4096x62_1_0_0_1_n_n : DotDims S4096x200 S200x62 S4096x62 where
  lhsContracting := [1]
  rhsContracting := [0]
  lhsNonContracting := [0]
  rhsNonContracting := [1]
  lhsBatch := []
  rhsBatch := []
  wf := dot_S4096x200_S200x62_S4096x62_1_0_0_1_n_n_wf

abbrev win0_0 : Pipeline.Window sig grid0 :=
  Pipeline.Window.ofSpec (Memref.whole main_arg0) S1x4096x38.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x38x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x200x200.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x200.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x200x200.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1x200.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x200x200.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x1x200.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x200x62.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x1x62.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x31.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1x31.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5_0) S1x4096x31.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v5_1) S1x4096x31.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S5x65536x38 : Shape := ⟨3, ![5, 65536, 38]⟩
abbrev S5x38x200 : Shape := ⟨3, ![5, 38, 200]⟩
abbrev S5x1x200 : Shape := ⟨3, ![5, 1, 200]⟩
abbrev S5x200x200 : Shape := ⟨3, ![5, 200, 200]⟩
abbrev S5x200x62 : Shape := ⟨3, ![5, 200, 62]⟩
abbrev S5x1x62 : Shape := ⟨3, ![5, 1, 62]⟩
abbrev S1x31 : Shape := ⟨2, ![1, 31]⟩
abbrev S5x65536x200 : Shape := ⟨3, ![5, 65536, 200]⟩
abbrev S_ : Shape := ⟨0, ![]⟩
abbrev S5x65536x62 : Shape := ⟨3, ![5, 65536, 62]⟩
abbrev S5x65536x31 : Shape := ⟨3, ![5, 65536, 31]⟩
abbrev S1x1x31 : Shape := ⟨3, ![1, 1, 31]⟩

abbrev nBuf : Space → Nat
  | .hbm => 106
  | .vmem => 0
  | .smem => 0
  | _ => 0

abbrev bufTy : (tb : Table) → Fin (tcTables nBuf tb) → BufTy
  | .hbm, ⟨0, _⟩ => ⟨S5x65536x38, .f32⟩
  | .hbm, ⟨1, _⟩ => ⟨S5x38x200, .f32⟩
  | .hbm, ⟨2, _⟩ => ⟨S5x1x200, .f32⟩
  | .hbm, ⟨3, _⟩ => ⟨S5x200x200, .f32⟩
  | .hbm, ⟨4, _⟩ => ⟨S5x1x200, .f32⟩
  | .hbm, ⟨5, _⟩ => ⟨S5x200x200, .f32⟩
  | .hbm, ⟨6, _⟩ => ⟨S5x1x200, .f32⟩
  | .hbm, ⟨7, _⟩ => ⟨S5x200x200, .f32⟩
  | .hbm, ⟨8, _⟩ => ⟨S5x1x200, .f32⟩
  | .hbm, ⟨9, _⟩ => ⟨S5x200x62, .f32⟩
  | .hbm, ⟨10, _⟩ => ⟨S5x1x62, .f32⟩
  | .hbm, ⟨11, _⟩ => ⟨S1x31, .f32⟩
  | .hbm, ⟨12, _⟩ => ⟨S1x31, .f32⟩
  | .hbm, ⟨13, _⟩ => ⟨S5x65536x200, .f32⟩
  | .hbm, ⟨14, _⟩ => ⟨S5x65536x200, .f32⟩
  | .hbm, ⟨15, _⟩ => ⟨S5x65536x200, .f32⟩
  | .hbm, ⟨16, _⟩ => ⟨S5x65536x200, .f32⟩
  | .hbm, ⟨17, _⟩ => ⟨S5x65536x200, .f32⟩
  | .hbm, ⟨18, _⟩ => ⟨S_, .f32⟩
  | .hbm, ⟨19, _⟩ => ⟨S5x65536x200, .f32⟩
  | .hbm, ⟨20, _⟩ => ⟨S5x65536x200, .f32⟩
  | .hbm, ⟨21, _⟩ => ⟨S_, .f32⟩
  | .hbm, ⟨22, _⟩ => ⟨S5x65536x200, .f32⟩
  | .hbm, ⟨23, _⟩ => ⟨S5x65536x200, .f32⟩
  | .hbm, ⟨24, _⟩ => ⟨S5x65536x200, .f32⟩
  | .hbm, ⟨25, _⟩ => ⟨S5x65536x200, .f32⟩
  | .hbm, ⟨26, _⟩ => ⟨S5x65536x200, .f32⟩
  | .hbm, ⟨27, _⟩ => ⟨S5x65536x200, .f32⟩
  | .hbm, ⟨28, _⟩ => ⟨S5x65536x200, .f32⟩
  | .hbm, ⟨29, _⟩ => ⟨S5x65536x200, .f32⟩
  | .hbm, ⟨30, _⟩ => ⟨S_, .f32⟩
  | .hbm, ⟨31, _⟩ => ⟨S5x65536x200, .f32⟩
  | .hbm, ⟨32, _⟩ => ⟨S5x65536x200, .f32⟩
  | .hbm, ⟨33, _⟩ => ⟨S_, .f32⟩
  | .hbm, ⟨34, _⟩ => ⟨S5x65536x200, .f32⟩
  | .hbm, ⟨35, _⟩ => ⟨S5x65536x200, .f32⟩
  | .hbm, ⟨36, _⟩ => ⟨S5x65536x200, .f32⟩
  | .hbm, ⟨37, _⟩ => ⟨S5x65536x200, .f32⟩
  | .hbm, ⟨38, _⟩ => ⟨S5x65536x200, .f32⟩
  | .hbm, ⟨39, _⟩ => ⟨S5x65536x200, .f32⟩
  | .hbm, ⟨40, _⟩ => ⟨S5x65536x200, .f32⟩
  | .hbm, ⟨41, _⟩ => ⟨S5x65536x200, .f32⟩
  | .hbm, ⟨42, _⟩ => ⟨S_, .f32⟩
  | .hbm, ⟨43, _⟩ => ⟨S5x65536x200, .f32⟩
  | .hbm, ⟨44, _⟩ => ⟨S5x65536x200, .f32⟩
  | .hbm, ⟨45, _⟩ => ⟨S_, .f32⟩
  | .hbm, ⟨46, _⟩ => ⟨S5x65536x200, .f32⟩
  | .hbm, ⟨47, _⟩ => ⟨S5x65536x200, .f32⟩
  | .hbm, ⟨48, _⟩ => ⟨S5x65536x200, .f32⟩
  | .hbm, ⟨49, _⟩ => ⟨S5x65536x200, .f32⟩
  | .hbm, ⟨50, _⟩ => ⟨S5x65536x200, .f32⟩
  | .hbm, ⟨51, _⟩ => ⟨S5x65536x200, .f32⟩
  | .hbm, ⟨52, _⟩ => ⟨S5x65536x200, .f32⟩
  | .hbm, ⟨53, _⟩ => ⟨S5x65536x200, .f32⟩
  | .hbm, ⟨54, _⟩ => ⟨S_, .f32⟩
  | .hbm, ⟨55, _⟩ => ⟨S5x65536x200, .f32⟩
  | .hbm, ⟨56, _⟩ => ⟨S5x65536x200, .f32⟩
  | .hbm, ⟨57, _⟩ => ⟨S_, .f32⟩
  | .hbm, ⟨58, _⟩ => ⟨S5x65536x200, .f32⟩
  | .hbm, ⟨59, _⟩ => ⟨S5x65536x200, .f32⟩
  | .hbm, ⟨60, _⟩ => ⟨S5x65536x200, .f32⟩
  | .hbm, ⟨61, _⟩ => ⟨S5x65536x62, .f32⟩
  | .hbm, ⟨62, _⟩ => ⟨S5x65536x62, .f32⟩
  | .hbm, ⟨63, _⟩ => ⟨S5x65536x62, .f32⟩
  | .hbm, ⟨64, _⟩ => ⟨S5x65536x31, .f32⟩
  | .hbm, ⟨65, _⟩ => ⟨S5x65536x31, .f32⟩
  | .hbm, ⟨66, _⟩ => ⟨S1x1x31, .f32⟩
  | .hbm, ⟨67, _⟩ => ⟨S5x65536x31, .f32⟩
  | .hbm, ⟨68, _⟩ => ⟨S5x65536x31, .f32⟩
  | .hbm, ⟨69, _⟩ => ⟨S_, .f32⟩
  | .hbm, ⟨70, _⟩ => ⟨S5x65536x31, .f32⟩
  | .hbm, ⟨71, _⟩ => ⟨S5x65536x31, .f32⟩
  | .hbm, ⟨72, _⟩ => ⟨S5x65536x31, .f32⟩
  | .hbm, ⟨73, _⟩ => ⟨S5x65536x31, .f32⟩
  | .hbm, ⟨74, _⟩ => ⟨S5x65536x31, .i1⟩
  | .hbm, ⟨75, _⟩ => ⟨S5x65536x31, .f32⟩
  | .hbm, ⟨76, _⟩ => ⟨S5x65536x31, .f32⟩
  | .hbm, ⟨77, _⟩ => ⟨S5x65536x31, .f32⟩
  | .hbm, ⟨78, _⟩ => ⟨S5x65536x31, .f32⟩
  | .hbm, ⟨79, _⟩ => ⟨S5x65536x31, .f32⟩
  | .hbm, ⟨80, _⟩ => ⟨S5x65536x31, .f32⟩
  | .hbm, ⟨81, _⟩ => ⟨S5x65536x31, .f32⟩
  | .hbm, ⟨82, _⟩ => ⟨S5x65536x31, .f32⟩
  | .hbm, ⟨83, _⟩ => ⟨S1x1x31, .f32⟩
  | .hbm, ⟨84, _⟩ => ⟨S5x65536x31, .f32⟩
  | .hbm, ⟨85, _⟩ => ⟨S5x65536x31, .f32⟩
  | .hbm, ⟨86, _⟩ => ⟨S1x1x31, .f32⟩
  | .hbm, ⟨87, _⟩ => ⟨S5x65536x31, .f32⟩
  | .hbm, ⟨88, _⟩ => ⟨S5x65536x31, .f32⟩
  | .hbm, ⟨89, _⟩ => ⟨S_, .f32⟩
  | .hbm, ⟨90, _⟩ => ⟨S5x65536x31, .f32⟩
  | .hbm, ⟨91, _⟩ => ⟨S5x65536x31, .f32⟩
  | .hbm, ⟨92, _⟩ => ⟨S5x65536x31, .f32⟩
  | .hbm, ⟨93, _⟩ => ⟨S5x65536x31, .f32⟩
  | .hbm, ⟨94, _⟩ => ⟨S5x65536x31, .i1⟩
  | .hbm, ⟨95, _⟩ => ⟨S5x65536x31, .f32⟩
  | .hbm, ⟨96, _⟩ => ⟨S5x65536x31, .f32⟩
  | .hbm, ⟨97, _⟩ => ⟨S5x65536x31, .f32⟩
  | .hbm, ⟨98, _⟩ => ⟨S5x65536x31, .f32⟩
  | .hbm, ⟨99, _⟩ => ⟨S5x65536x31, .f32⟩
  | .hbm, ⟨100, _⟩ => ⟨S5x65536x31, .f32⟩
  | .hbm, ⟨101, _⟩ => ⟨S5x65536x31, .f32⟩
  | .hbm, ⟨102, _⟩ => ⟨S5x65536x31, .f32⟩
  | .hbm, ⟨103, _⟩ => ⟨S1x1x31, .f32⟩
  | .hbm, ⟨104, _⟩ => ⟨S5x65536x31, .f32⟩
  | .hbm, ⟨105, _⟩ => ⟨S5x65536x31, .f32⟩
  | _, _ => ⟨S5x65536x38, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_call2_v5 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_call3_v0 : Ref sig .tc := ⟨.hbm, 52, rfl⟩
abbrev main_call3_v1 : Ref sig .tc := ⟨.hbm, 53, rfl⟩
abbrev main_call3_cst : Ref sig .tc := ⟨.hbm, 54, rfl⟩
abbrev main_call3_v2 : Ref sig .tc := ⟨.hbm, 55, rfl⟩
abbrev main_call3_v3 : Ref sig .tc := ⟨.hbm, 56, rfl⟩
abbrev main_call3_cst_0 : Ref sig .tc := ⟨.hbm, 57, rfl⟩
abbrev main_call3_v4 : Ref sig .tc := ⟨.hbm, 58, rfl⟩
abbrev main_call3_v5 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_call4_cst : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_v6 : Ref sig .tc := ⟨.hbm, 76, rfl⟩
abbrev main_call4_v7 : Ref sig .tc := ⟨.hbm, 77, rfl⟩
abbrev main_call4_v8 : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_call5_cst : Ref sig .tc := ⟨.hbm, 89, rfl⟩
abbrev main_call5_v0 : Ref sig .tc := ⟨.hbm, 90, rfl⟩
abbrev main_call5_v1 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_call5_v5 : Ref sig .tc := ⟨.hbm, 95, rfl⟩
abbrev main_call5_v6 : Ref sig .tc := ⟨.hbm, 96, rfl⟩
abbrev main_call5_v7 : Ref sig .tc := ⟨.hbm, 97, rfl⟩
abbrev main_call5_v8 : Ref sig .tc := ⟨.hbm, 98, rfl⟩
abbrev main_call5_v9 : Ref sig .tc := ⟨.hbm, 99, rfl⟩
abbrev main_call5_v10 : Ref sig .tc := ⟨.hbm, 100, rfl⟩
abbrev main_call5_v11 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩

abbrev nD : Nat := 1
abbrev τ : Topo := Topo.v7x

variable {F : FTy → Type} [FloatOps F]

class Facts₀ : Prop where
  bcast_S5x1x200_S5x65536x200_0_1_2 : S5x1x200.BroadcastsInDim S5x65536x200 (![0, 1, 2] : Fin 3 → Fin S5x65536x200.rank)
  bcast_S_S5x65536x200 : S_.BroadcastsInDim S5x65536x200 (![] : Fin 0 → Fin S5x65536x200.rank)
  bcast_S5x1x62_S5x65536x62_0_1_2 : S5x1x62.BroadcastsInDim S5x65536x62 (![0, 1, 2] : Fin 3 → Fin S5x65536x62.rank)
  slices_S5x65536x62_S5x65536x31_0_0_0 : S5x65536x62.Slices ![0, 0, 0] S5x65536x31
  slices_S5x65536x62_S5x65536x31_0_0_31 : S5x65536x62.Slices ![0, 0, 31] S5x65536x31
  bcast_S1x31_S1x1x31_1_2 : S1x31.BroadcastsInDim S1x1x31 (![1, 2] : Fin 2 → Fin S1x1x31.rank)
  bcast_S1x1x31_S5x65536x31_0_1_2 : S1x1x31.BroadcastsInDim S5x65536x31 (![0, 1, 2] : Fin 3 → Fin S5x65536x31.rank)
  bcast_S_S5x65536x31 : S_.BroadcastsInDim S5x65536x31 (![] : Fin 0 → Fin S5x65536x31.rank)
  dot_S5x65536x38_S5x38x200_S5x65536x200_2_1_1_2_0_0_wf : DotDims.WF S5x65536x38 S5x38x200 S5x65536x200 [2] [1] [1] [2] [0] [0]
  dot_S5x65536x200_S5x200x200_S5x65536x200_2_1_1_2_0_0_wf : DotDims.WF S5x65536x200 S5x200x200 S5x65536x200 [2] [1] [1] [2] [0] [0]
  dot_S5x65536x200_S5x200x62_S5x65536x62_2_1_1_2_0_0_wf : DotDims.WF S5x65536x200 S5x200x62 S5x65536x62 [2] [1] [1] [2] [0] [0]

variable [Facts₀]

def dot_S5x65536x38_S5x38x200_S5x65536x200_2_1_1_2_0_0 : DotDims S5x65536x38 S5x38x200 S5x65536x200 where
  lhsContracting := [2]
  rhsContracting := [1]
  lhsNonContracting := [1]
  rhsNonContracting := [2]
  lhsBatch := [0]
  rhsBatch := [0]
  wf := dot_S5x65536x38_S5x38x200_S5x65536x200_2_1_1_2_0_0_wf
def dot_S5x65536x200_S5x200x200_S5x65536x200_2_1_1_2_0_0 : DotDims S5x65536x200 S5x200x200 S5x65536x200 where
  lhsContracting := [2]
  rhsContracting := [1]
  lhsNonContracting := [1]
  rhsNonContracting := [2]
  lhsBatch := [0]
  rhsBatch := [0]
  wf := dot_S5x65536x200_S5x200x200_S5x65536x200_2_1_1_2_0_0_wf
def dot_S5x65536x200_S5x200x62_S5x65536x62_2_1_1_2_0_0 : DotDims S5x65536x200 S5x200x62 S5x65536x62 where
  lhsContracting := [2]
  rhsContracting := [1]
  lhsNonContracting := [1]
  rhsNonContracting := [2]
  lhsBatch := [0]
  rhsBatch := [0]
  wf := dot_S5x65536x200_S5x200x62_S5x65536x62_2_1_1_2_0_0_wf

class Facts : Prop extends Facts₀ where

variable [Facts]
-- ==== Proof.Spec.lean ====
/-
  The function both programs compute, written once for one batch row.

  An ensemble member e owns five weight matrices and five bias rows.  A row h of its input goes through four
  hidden layers  h ↦ silu (h · W + b)  with  silu z = z · σ(z),  σ(z) = 1 / (1 + e^{-z}),  and one affine output
  layer of width 62.  The first 31 outputs are the mean.  The last 31 are a raw log-variance v, which is pushed
  below hi and then above lo by two soft clamps,  lo + softplus ((hi - softplus (hi - v)) - lo),  where
  softplus x = log (1 + e^x)  is taken in the arrangement  max x 0 + log (1 + e^{-|x|}).

  Everything is over the extended reals, with the conventions of the ideal instance at the infinities; no step
  below needs an entry to be finite, because both programs apply the same operations in the same order and differ
  only in how they spell σ, -|x| and a comparison x ≠ x that never holds.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-! ## The scalar functions -/

/-- z · σ(z). -/
def silu (z : EReal) : EReal := z * Ideal.logistic z

/-- log (1 + e^x) as max x 0 + log (1 + e^{-|x|}), with |x| = max x (-x). -/
def softplus (x : EReal) : EReal := max x 0 + Ideal.log1p (Ideal.exp (-(max x (-x))))

/-- A raw log-variance v clamped softly below hi, then softly above lo. -/
def softClamp (hi lo v : EReal) : EReal := lo + softplus ((hi - softplus (hi - v)) - lo)

/-- The comparison x ≠ x is false for every extended real: the ordered spelling. -/
theorem cmp_one_self (x : EReal) : Ideal.cmp .one x x = 0#1 := by
  simp [Ideal.cmp]

/-- The comparison x ≠ x is false for every extended real: the unordered spelling. -/
theorem cmp_une_self (x : EReal) : Ideal.cmp .une x x = 0#1 := by
  simp [Ideal.cmp]

/-- One program's spelling of softplus: the guard x - 0 ≠ x - 0 selects the second branch, and 0 - |x - 0| is -|x|. -/
theorem softplus_of_zero_sub (x : EReal) :
    Scalar.select (Ideal.cmp .one (x - 0) (x - 0)) (x + 0)
        (max x 0 + Ideal.log1p (Ideal.exp (0 - max (x - 0) (-(x - 0))))) = softplus x := by
  rw [cmp_one_self, select_zero, sub_zero, zero_sub]
  rfl

/-- The other program's spelling: the same with the unordered comparison and a negation. -/
theorem softplus_of_neg (x : EReal) :
    Scalar.select (Ideal.cmp .une (x - 0) (x - 0)) (x + 0)
        (max x 0 + Ideal.log1p (Ideal.exp (-(max (x - 0) (-(x - 0)))))) = softplus x := by
  rw [cmp_une_self, select_zero, sub_zero]
  rfl

/-- The float word of 1.0 is the real number one. -/
theorem ofBits_one_f32 : Ideal.ofBits .f32 0x3F800000#32 = 1 := by
  simp [Ideal.ofBits, Ideal.ieee, -EReal.coe_mul]
  norm_num

/-- σ spelt with a quotient is the ideal instance's logistic function: its definition. -/
theorem silu_of_div (z : EReal) : z * Ideal.div 1 (1 + Ideal.exp (-z)) = silu z := rfl

/-! ## One row through the network -/

/-- An affine layer on one row: (h · W)_o + b_o. -/
def affineLayer {K N : Nat} (h : Fin K → EReal) (w : Fin K → Fin N → EReal) (b : Fin N → EReal) (o : Fin N) : EReal :=
  (∑ k : Fin K, h k * w k o) + b o

/-- A hidden layer: the affine layer followed by silu. -/
def hiddenLayer {K N : Nat} (h : Fin K → EReal) (w : Fin K → Fin N → EReal) (b : Fin N → EReal) (o : Fin N) : EReal :=
  silu (affineLayer h w b o)

/-- The network's 62 raw outputs for one input row: four hidden layers and the output layer. -/
def outputs (x : Fin 38 → EReal)
    (w0 : Fin 38 → Fin 200 → EReal) (b0 : Fin 200 → EReal) (w1 : Fin 200 → Fin 200 → EReal) (b1 : Fin 200 → EReal)
    (w2 : Fin 200 → Fin 200 → EReal) (b2 : Fin 200 → EReal) (w3 : Fin 200 → Fin 200 → EReal) (b3 : Fin 200 → EReal)
    (w4 : Fin 200 → Fin 62 → EReal) (b4 : Fin 62 → EReal) : Fin 62 → EReal :=
  affineLayer (hiddenLayer (hiddenLayer (hiddenLayer (hiddenLayer x w0 b0) w1 b1) w2 b2) w3 b3) w4 b4

/-! ## Rows, matrices and bias rows of stacked arrays -/

/-- Row r of member e in a stack of [B, K] matrices. -/
def row {E B K : Nat} (x : (⟨3, ![E, B, K]⟩ : Shape).Idx → EReal) (e : Fin E) (r : Fin B) : Fin K → EReal :=
  fun k => x (ix3 e r k)

/-- Member e's matrix in a stack of [K, N] matrices. -/
def mat {E K N : Nat} (w : (⟨3, ![E, K, N]⟩ : Shape).Idx → EReal) (e : Fin E) : Fin K → Fin N → EReal :=
  fun k o => w (ix3 e k o)

/-- Member e's bias row in a stack of [1, N] rows. -/
def vec {E N : Nat} (b : (⟨3, ![E, 1, N]⟩ : Shape).Idx → EReal) (e : Fin E) : Fin N → EReal :=
  fun o => b (ix3 e (0 : Fin 1) o)

/-! ## The two result arrays -/

section Arrays

variable (x : (⟨3, ![5, 65536, 38]⟩ : Shape).Idx → EReal)
  (w0 : (⟨3, ![5, 38, 200]⟩ : Shape).Idx → EReal) (b0 : (⟨3, ![5, 1, 200]⟩ : Shape).Idx → EReal)
  (w1 : (⟨3, ![5, 200, 200]⟩ : Shape).Idx → EReal) (b1 : (⟨3, ![5, 1, 200]⟩ : Shape).Idx → EReal)
  (w2 : (⟨3, ![5, 200, 200]⟩ : Shape).Idx → EReal) (b2 : (⟨3, ![5, 1, 200]⟩ : Shape).Idx → EReal)
  (w3 : (⟨3, ![5, 200, 200]⟩ : Shape).Idx → EReal) (b3 : (⟨3, ![5, 1, 200]⟩ : Shape).Idx → EReal)
  (w4 : (⟨3, ![5, 200, 62]⟩ : Shape).Idx → EReal) (b4 : (⟨3, ![5, 1, 62]⟩ : Shape).Idx → EReal)
  (hi lo : (⟨2, ![1, 31]⟩ : Shape).Idx → EReal)

/-- The raw outputs of batch row r under member e. -/
def outAt (e : Fin 5) (r : Fin 65536) : Fin 62 → EReal :=
  outputs (row x e r) (mat w0 e) (vec b0 e) (mat w1 e) (vec b1 e) (mat w2 e) (vec b2 e) (mat w3 e) (vec b3 e)
    (mat w4 e) (vec b4 e)

/-- The mean: outputs 0 … 30. -/
def meanAt (e : Fin 5) (r : Fin 65536) (j : Fin 31) : EReal :=
  outAt x w0 b0 w1 b1 w2 b2 w3 b3 w4 b4 e r ⟨j.val, by omega⟩

/-- The log-variance: outputs 31 … 61, clamped softly between the two bound rows. -/
def logvarAt (e : Fin 5) (r : Fin 65536) (j : Fin 31) : EReal :=
  softClamp (hi (ix2 (0 : Fin 1) j)) (lo (ix2 (0 : Fin 1) j))
    (outAt x w0 b0 w1 b1 w2 b2 w3 b3 w4 b4 e r ⟨31 + j.val, by omega⟩)

/-- The mean as an array [5, 65536, 31]. -/
def meanArr : (⟨3, ![5, 65536, 31]⟩ : Shape).Idx → EReal := fun i =>
  meanAt x w0 b0 w1 b1 w2 b2 w3 b3 w4 b4 ⟨(i 0).val, (i 0).isLt⟩ ⟨(i 1).val, (i 1).isLt⟩ ⟨(i 2).val, (i 2).isLt⟩

/-- The log-variance as an array [5, 65536, 31]. -/
def logvarArr : (⟨3, ![5, 65536, 31]⟩ : Shape).Idx → EReal := fun i =>
  logvarAt x w0 b0 w1 b1 w2 b2 w3 b3 w4 b4 hi lo ⟨(i 0).val, (i 0).isLt⟩ ⟨(i 1).val, (i 1).isLt⟩
    ⟨(i 2).val, (i 2).isLt⟩

end Arrays

end Cert.Mlp

end
-- ==== Proof.KernelRow.lean ====
/-
  One grid point of the tiled program, read at an entry.

  At a grid point the body holds a [4096, 38] block of input rows and one ensemble member's ten parameter blocks,
  and computes with whole-block vector operations.  Read at row r and column o, each of its matrix products into a
  zero accumulator is the sum over k of A (r, k) · W (k, o); a bias row broadcast over the 4096 rows contributes its
  entry o; silu and the change to the matrix unit's input format act entry by entry, the latter as the identity on
  the extended reals.  So entry (r, o) of each layer is the layer function of Spec applied to row r of the layer's
  input, and the block of raw outputs is, row by row, the network of Spec on that row of the input block.

  The body's two soft clamps are spelt with a guard  x - 0 ≠ x - 0  and with  0 - |x - 0|;  Spec shows that this is
  softplus.  The bound rows are broadcast over the rows, so entry (r, j) of the clamped block uses entry j of each.
-/
import proofs.«141821_j82394652606605_1_alg».proof.Proof.Gen.KernelIdeal.Skeleton
import proofs.«141821_j82394652606605_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.Mlp

/-! ## A block's matrix product at an entry

The three products differ only in their extents: [4096, 38] · [38, 200], [4096, 200] · [200, 200] and
[4096, 200] · [200, 62].  In each the left operand's axis 1 and the right operand's axis 0 are contracted, so the
operand indices at output (r, o) and contraction index k are (r, k) and (k, o). -/

theorem matmul_first_lhs0 (i : S4096x200.Idx) (q : dot_S4096x38_S38x200_S4096x200_1_0_0_1_n_n.contr.Idx) : (dot_S4096x38_S38x200_S4096x200_1_0_0_1_n_n.lhsIdx i q 0).val = (i 0).val := by
  unfold DotDims.lhsIdx
  rw [dif_neg (show ¬(0 : Fin S4096x38.rank) ∈ dot_S4096x38_S38x200_S4096x200_1_0_0_1_n_n.lhsBatch by decide),
    dif_pos (show (0 : Fin S4096x38.rank) ∈ dot_S4096x38_S38x200_S4096x200_1_0_0_1_n_n.lhsNonContracting by decide)]
  rfl
theorem matmul_first_lhs1 (i : S4096x200.Idx) (q : dot_S4096x38_S38x200_S4096x200_1_0_0_1_n_n.contr.Idx) : (dot_S4096x38_S38x200_S4096x200_1_0_0_1_n_n.lhsIdx i q 1).val = (q ⟨0, by decide⟩).val :=
  dot_S4096x38_S38x200_S4096x200_1_0_0_1_n_n.lhsIdx_val_of_single rfl i q
theorem matmul_first_rhs0 (i : S4096x200.Idx) (q : dot_S4096x38_S38x200_S4096x200_1_0_0_1_n_n.contr.Idx) : (dot_S4096x38_S38x200_S4096x200_1_0_0_1_n_n.rhsIdx i q 0).val = (q ⟨0, by decide⟩).val :=
  dot_S4096x38_S38x200_S4096x200_1_0_0_1_n_n.rhsIdx_val_of_single rfl i q
theorem matmul_first_rhs1 (i : S4096x200.Idx) (q : dot_S4096x38_S38x200_S4096x200_1_0_0_1_n_n.contr.Idx) : (dot_S4096x38_S38x200_S4096x200_1_0_0_1_n_n.rhsIdx i q 1).val = (i 1).val := by
  unfold DotDims.rhsIdx
  rw [dif_neg (show ¬(1 : Fin S38x200.rank) ∈ dot_S4096x38_S38x200_S4096x200_1_0_0_1_n_n.rhsBatch by decide),
    dif_pos (show (1 : Fin S38x200.rank) ∈ dot_S4096x38_S38x200_S4096x200_1_0_0_1_n_n.rhsNonContracting by decide)]
  rfl

theorem matmul_first (A : FVec Ideal S4096x38 .bf16) (W : FVec Ideal S38x200 .bf16) (r : Fin 4096) (o : Fin 200) :
    matmul dot_S4096x38_S38x200_S4096x200_1_0_0_1_n_n none A W (constant (F := Ideal) S4096x200 .f32 0x00000000#32) (ix2 r o)
      = ∑ k : Fin 38, A (ix2 r k) * W (ix2 k o) := by
  simp only [matmul]
  rw [Ideal.matmul_constant_zero_apply, ← Equiv.sum_comp (contrEquiv1 dot_S4096x38_S38x200_S4096x200_1_0_0_1_n_n 38 rfl rfl).symm]
  refine Finset.sum_congr rfl fun k _ => ?_
  have hk := contrEquiv1_symm_val dot_S4096x38_S38x200_S4096x200_1_0_0_1_n_n 38 rfl rfl k
  have el : dot_S4096x38_S38x200_S4096x200_1_0_0_1_n_n.lhsIdx (ix2 r o) ((contrEquiv1 dot_S4096x38_S38x200_S4096x200_1_0_0_1_n_n 38 rfl rfl).symm k) = ix2 r k :=
    funext fun a => Fin.ext (by
      match a with
      | ⟨0, _⟩ => exact matmul_first_lhs0 _ _
      | ⟨1, _⟩ => exact (matmul_first_lhs1 _ _).trans hk)
  have er : dot_S4096x38_S38x200_S4096x200_1_0_0_1_n_n.rhsIdx (ix2 r o) ((contrEquiv1 dot_S4096x38_S38x200_S4096x200_1_0_0_1_n_n 38 rfl rfl).symm k) = ix2 k o :=
    funext fun a => Fin.ext (by
      match a with
      | ⟨0, _⟩ => exact (matmul_first_rhs0 _ _).trans hk
      | ⟨1, _⟩ => exact matmul_first_rhs1 _ _)
  rw [el, er]

theorem matmul_mid_lhs0 (i : S4096x200.Idx) (q : dot_S4096x200_S200x200_S4096x200_1_0_0_1_n_n.contr.Idx) : (dot_S4096x200_S200x200_S4096x200_1_0_0_1_n_n.lhsIdx i q 0).val = (i 0).val := by
  unfold DotDims.lhsIdx
  rw [dif_neg (show ¬(0 : Fin S4096x200.rank) ∈ dot_S4096x200_S200x200_S4096x200_1_0_0_1_n_n.lhsBatch by decide),
    dif_pos (show (0 : Fin S4096x200.rank) ∈ dot_S4096x200_S200x200_S4096x200_1_0_0_1_n_n.lhsNonContracting by decide)]
  rfl
theorem matmul_mid_lhs1 (i : S4096x200.Idx) (q : dot_S4096x200_S200x200_S4096x200_1_0_0_1_n_n.contr.Idx) : (dot_S4096x200_S200x200_S4096x200_1_0_0_1_n_n.lhsIdx i q 1).val = (q ⟨0, by decide⟩).val :=
  dot_S4096x200_S200x200_S4096x200_1_0_0_1_n_n.lhsIdx_val_of_single rfl i q
theorem matmul_mid_rhs0 (i : S4096x200.Idx) (q : dot_S4096x200_S200x200_S4096x200_1_0_0_1_n_n.contr.Idx) : (dot_S4096x200_S200x200_S4096x200_1_0_0_1_n_n.rhsIdx i q 0).val = (q ⟨0, by decide⟩).val :=
  dot_S4096x200_S200x200_S4096x200_1_0_0_1_n_n.rhsIdx_val_of_single rfl i q
theorem matmul_mid_rhs1 (i : S4096x200.Idx) (q : dot_S4096x200_S200x200_S4096x200_1_0_0_1_n_n.contr.Idx) : (dot_S4096x200_S200x200_S4096x200_1_0_0_1_n_n.rhsIdx i q 1).val = (i 1).val := by
  unfold DotDims.rhsIdx
  rw [dif_neg (show ¬(1 : Fin S200x200.rank) ∈ dot_S4096x200_S200x200_S4096x200_1_0_0_1_n_n.rhsBatch by decide),
    dif_pos (show (1 : Fin S200x200.rank) ∈ dot_S4096x200_S200x200_S4096x200_1_0_0_1_n_n.rhsNonContracting by decide)]
  rfl

theorem matmul_mid (A : FVec Ideal S4096x200 .bf16) (W : FVec Ideal S200x200 .bf16) (r : Fin 4096) (o : Fin 200) :
    matmul dot_S4096x200_S200x200_S4096x200_1_0_0_1_n_n none A W (constant (F := Ideal) S4096x200 .f32 0x00000000#32) (ix2 r o)
      = ∑ k : Fin 200, A (ix2 r k) * W (ix2 k o) := by
  simp only [matmul]
  rw [Ideal.matmul_constant_zero_apply, ← Equiv.sum_comp (contrEquiv1 dot_S4096x200_S200x200_S4096x200_1_0_0_1_n_n 200 rfl rfl).symm]
  refine Finset.sum_congr rfl fun k _ => ?_
  have hk := contrEquiv1_symm_val dot_S4096x200_S200x200_S4096x200_1_0_0_1_n_n 200 rfl rfl k
  have el : dot_S4096x200_S200x200_S4096x200_1_0_0_1_n_n.lhsIdx (ix2 r o) ((contrEquiv1 dot_S4096x200_S200x200_S4096x200_1_0_0_1_n_n 200 rfl rfl).symm k) = ix2 r k :=
    funext fun a => Fin.ext (by
      match a with
      | ⟨0, _⟩ => exact matmul_mid_lhs0 _ _
      | ⟨1, _⟩ => exact (matmul_mid_lhs1 _ _).trans hk)
  have er : dot_S4096x200_S200x200_S4096x200_1_0_0_1_n_n.rhsIdx (ix2 r o) ((contrEquiv1 dot_S4096x200_S200x200_S4096x200_1_0_0_1_n_n 200 rfl rfl).symm k) = ix2 k o :=
    funext fun a => Fin.ext (by
      match a with
      | ⟨0, _⟩ => exact (matmul_mid_rhs0 _ _).trans hk
      | ⟨1, _⟩ => exact matmul_mid_rhs1 _ _)
  rw [el, er]

theorem matmul_last_lhs0 (i : S4096x62.Idx) (q : dot_S4096x200_S200x62_S4096x62_1_0_0_1_n_n.contr.Idx) : (dot_S4096x200_S200x62_S4096x62_1_0_0_1_n_n.lhsIdx i q 0).val = (i 0).val := by
  unfold DotDims.lhsIdx
  rw [dif_neg (show ¬(0 : Fin S4096x200.rank) ∈ dot_S4096x200_S200x62_S4096x62_1_0_0_1_n_n.lhsBatch by decide),
    dif_pos (show (0 : Fin S4096x200.rank) ∈ dot_S4096x200_S200x62_S4096x62_1_0_0_1_n_n.lhsNonContracting by decide)]
  rfl
theorem matmul_last_lhs1 (i : S4096x62.Idx) (q : dot_S4096x200_S200x62_S4096x62_1_0_0_1_n_n.contr.Idx) : (dot_S4096x200_S200x62_S4096x62_1_0_0_1_n_n.lhsIdx i q 1).val = (q ⟨0, by decide⟩).val :=
  dot_S4096x200_S200x62_S4096x62_1_0_0_1_n_n.lhsIdx_val_of_single rfl i q
theorem matmul_last_rhs0 (i : S4096x62.Idx) (q : dot_S4096x200_S200x62_S4096x62_1_0_0_1_n_n.contr.Idx) : (dot_S4096x200_S200x62_S4096x62_1_0_0_1_n_n.rhsIdx i q 0).val = (q ⟨0, by decide⟩).val :=
  dot_S4096x200_S200x62_S4096x62_1_0_0_1_n_n.rhsIdx_val_of_single rfl i q
theorem matmul_last_rhs1 (i : S4096x62.Idx) (q : dot_S4096x200_S200x62_S4096x62_1_0_0_1_n_n.contr.Idx) : (dot_S4096x200_S200x62_S4096x62_1_0_0_1_n_n.rhsIdx i q 1).val = (i 1).val := by
  unfold DotDims.rhsIdx
  rw [dif_neg (show ¬(1 : Fin S200x62.rank) ∈ dot_S4096x200_S200x62_S4096x62_1_0_0_1_n_n.rhsBatch by decide),
    dif_pos (show (1 : Fin S200x62.rank) ∈ dot_S4096x200_S200x62_S4096x62_1_0_0_1_n_n.rhsNonContracting by decide)]
  rfl

theorem matmul_last (A : FVec Ideal S4096x200 .bf16) (W : FVec Ideal S200x62 .bf16) (r : Fin 4096) (o : Fin 62) :
    matmul dot_S4096x200_S200x62_S4096x62_1_0_0_1_n_n none A W (constant (F := Ideal) S4096x62 .f32 0x00000000#32) (ix2 r o)
      = ∑ k : Fin 200, A (ix2 r k) * W (ix2 k o) := by
  simp only [matmul]
  rw [Ideal.matmul_constant_zero_apply, ← Equiv.sum_comp (contrEquiv1 dot_S4096x200_S200x62_S4096x62_1_0_0_1_n_n 200 rfl rfl).symm]
  refine Finset.sum_congr rfl fun k _ => ?_
  have hk := contrEquiv1_symm_val dot_S4096x200_S200x62_S4096x62_1_0_0_1_n_n 200 rfl rfl k
  have el : dot_S4096x200_S200x62_S4096x62_1_0_0_1_n_n.lhsIdx (ix2 r o) ((contrEquiv1 dot_S4096x200_S200x62_S4096x62_1_0_0_1_n_n 200 rfl rfl).symm k) = ix2 r k :=
    funext fun a => Fin.ext (by
      match a with
      | ⟨0, _⟩ => exact matmul_last_lhs0 _ _
      | ⟨1, _⟩ => exact (matmul_last_lhs1 _ _).trans hk)
  have er : dot_S4096x200_S200x62_S4096x62_1_0_0_1_n_n.rhsIdx (ix2 r o) ((contrEquiv1 dot_S4096x200_S200x62_S4096x62_1_0_0_1_n_n 200 rfl rfl).symm k) = ix2 k o :=
    funext fun a => Fin.ext (by
      match a with
      | ⟨0, _⟩ => exact (matmul_last_rhs0 _ _).trans hk
      | ⟨1, _⟩ => exact matmul_last_rhs1 _ _)
  rw [el, er]

/-! ## The layers of a block, in the body's own vector operations -/

/-- The first hidden layer of a block: A · W + b, then silu, then the change of format. -/
def layerFirst (A : FVec Ideal S4096x38 .bf16) (W : Vec Ideal S1x38x200 .bf16) (B : Vec Ideal S1x1x200 .f32) :
    FVec Ideal S4096x200 .bf16 :=
  truncf .bf16
    (mulf
      (addf (matmul dot_S4096x38_S38x200_S4096x200_1_0_0_1_n_n none A (shapeCast S38x200 W shapeCasts_S1x38x200_S38x200 : FVec Ideal S38x200 .bf16)
          (constant S4096x200 .f32 0x00000000#32))
        (broadcastTo S4096x200 (shapeCast S1x200 B shapeCasts_S1x1x200_S1x200 : FVec Ideal S1x200 .f32) broadcasts_S1x200_S4096x200))
      (logistic
        (addf (matmul dot_S4096x38_S38x200_S4096x200_1_0_0_1_n_n none A (shapeCast S38x200 W shapeCasts_S1x38x200_S38x200 : FVec Ideal S38x200 .bf16)
            (constant S4096x200 .f32 0x00000000#32))
          (broadcastTo S4096x200 (shapeCast S1x200 B shapeCasts_S1x1x200_S1x200 : FVec Ideal S1x200 .f32) broadcasts_S1x200_S4096x200))))
    bitsLt_bf16_f32

/-- A later hidden layer of a block. -/
def layerMid (A : FVec Ideal S4096x200 .bf16) (W : Vec Ideal S1x200x200 .bf16) (B : Vec Ideal S1x1x200 .f32) :
    FVec Ideal S4096x200 .bf16 :=
  truncf .bf16
    (mulf
      (addf (matmul dot_S4096x200_S200x200_S4096x200_1_0_0_1_n_n none A (shapeCast S200x200 W shapeCasts_S1x200x200_S200x200 : FVec Ideal S200x200 .bf16)
          (constant S4096x200 .f32 0x00000000#32))
        (broadcastTo S4096x200 (shapeCast S1x200 B shapeCasts_S1x1x200_S1x200 : FVec Ideal S1x200 .f32) broadcasts_S1x200_S4096x200))
      (logistic
        (addf (matmul dot_S4096x200_S200x200_S4096x200_1_0_0_1_n_n none A (shapeCast S200x200 W shapeCasts_S1x200x200_S200x200 : FVec Ideal S200x200 .bf16)
            (constant S4096x200 .f32 0x00000000#32))
          (broadcastTo S4096x200 (shapeCast S1x200 B shapeCasts_S1x1x200_S1x200 : FVec Ideal S1x200 .f32) broadcasts_S1x200_S4096x200))))
    bitsLt_bf16_f32

/-- The output layer of a block: A · W + b. -/
def layerLast (A : FVec Ideal S4096x200 .bf16) (W : Vec Ideal S1x200x62 .bf16) (B : Vec Ideal S1x1x62 .f32) :
    FVec Ideal S4096x62 .f32 :=
  addf (matmul dot_S4096x200_S200x62_S4096x62_1_0_0_1_n_n none A (shapeCast S200x62 W shapeCasts_S1x200x62_S200x62 : FVec Ideal S200x62 .bf16)
      (constant S4096x62 .f32 0x00000000#32))
    (broadcastTo S4096x62 (shapeCast S1x62 B shapeCasts_S1x1x62_S1x62 : FVec Ideal S1x62 .f32) broadcasts_S1x62_S4096x62)

/-- The input block in the matrix unit's format: the leading unit axis dropped. -/
def inputRows (P : Vec Ideal S1x4096x38 .f32) : FVec Ideal S4096x38 .bf16 :=
  truncf .bf16 (shapeCast S4096x38 P shapeCasts_S1x4096x38_S4096x38 : FVec Ideal S4096x38 .f32) bitsLt_bf16_f32

/-- The payload of the first three hidden layers is the three layers, composed. -/
theorem pay3_eq (P0 : Vec Ideal S1x4096x38 .f32) (P1 : Vec Ideal S1x38x200 .bf16) (P2 : Vec Ideal S1x1x200 .f32)
    (P3 : Vec Ideal S1x200x200 .bf16) (P4 : Vec Ideal S1x1x200 .f32) (P5 : Vec Ideal S1x200x200 .bf16)
    (P6 : Vec Ideal S1x1x200 .f32) :
    k0_pay3 P0 P1 P2 P3 P4 P5 P6 = layerMid (layerMid (layerFirst (inputRows P0) P1 P2) P3 P4) P5 P6 := rfl

/-- The payload of the raw outputs is the fourth hidden layer and the output layer. -/
theorem pay4_eq (H : FVec Ideal S4096x200 .bf16) (P7 : Vec Ideal S1x200x200 .bf16) (P8 : Vec Ideal S1x1x200 .f32)
    (P9 : Vec Ideal S1x200x62 .bf16) (P10 : Vec Ideal S1x1x62 .f32) :
    k0_pay4 H P7 P8 P9 P10 = layerLast (layerMid H P7 P8) P9 P10 := rfl

/-! ## The layers at an entry -/

theorem inputRows_apply (P : Vec Ideal S1x4096x38 .f32) (r : Fin 4096) (k : Fin 38) :
    inputRows P (ix2 r k) = row P 0 r k := by
  unfold inputRows row
  rw [truncf_apply, shapeCast_1ab_ab_apply]

theorem layerFirst_apply (A : FVec Ideal S4096x38 .bf16) (W : Vec Ideal S1x38x200 .bf16) (B : Vec Ideal S1x1x200 .f32)
    (r : Fin 4096) (o : Fin 200) :
    layerFirst A W B (ix2 r o) = hiddenLayer (fun k => A (ix2 r k)) (mat W 0) (vec B 0) o := by
  have hz : (addf (matmul dot_S4096x38_S38x200_S4096x200_1_0_0_1_n_n none A (shapeCast S38x200 W shapeCasts_S1x38x200_S38x200 : FVec Ideal S38x200 .bf16)
          (constant (F := Ideal) S4096x200 .f32 0x00000000#32))
        (broadcastTo S4096x200 (shapeCast S1x200 B shapeCasts_S1x1x200_S1x200 : FVec Ideal S1x200 .f32) broadcasts_S1x200_S4096x200)) (ix2 r o)
      = affineLayer (fun k => A (ix2 r k)) (mat W 0) (vec B 0) o := by
    rw [addf_apply, matmul_first, broadcastTo_1b_ab_apply, shapeCast_1ab_ab_apply]
    unfold affineLayer mat vec
    refine congrArg (· + _) (Finset.sum_congr rfl fun k _ => ?_)
    rw [shapeCast_1ab_ab_apply]
  unfold layerFirst hiddenLayer
  rw [truncf_apply, mulf_apply]
  show _ * Ideal.logistic _ = silu _
  rw [hz]
  rfl

theorem layerMid_apply (A : FVec Ideal S4096x200 .bf16) (W : Vec Ideal S1x200x200 .bf16) (B : Vec Ideal S1x1x200 .f32)
    (r : Fin 4096) (o : Fin 200) :
    layerMid A W B (ix2 r o) = hiddenLayer (fun k => A (ix2 r k)) (mat W 0) (vec B 0) o := by
  have hz : (addf (matmul dot_S4096x200_S200x200_S4096x200_1_0_0_1_n_n none A (shapeCast S200x200 W shapeCasts_S1x200x200_S200x200 : FVec Ideal S200x200 .bf16)
          (constant (F := Ideal) S4096x200 .f32 0x00000000#32))
        (broadcastTo S4096x200 (shapeCast S1x200 B shapeCasts_S1x1x200_S1x200 : FVec Ideal S1x200 .f32) broadcasts_S1x200_S4096x200)) (ix2 r o)
      = affineLayer (fun k => A (ix2 r k)) (mat W 0) (vec B 0) o := by
    rw [addf_apply, matmul_mid, broadcastTo_1b_ab_apply, shapeCast_1ab_ab_apply]
    unfold affineLayer mat vec
    refine congrArg (· + _) (Finset.sum_congr rfl fun k _ => ?_)
    rw [shapeCast_1ab_ab_apply]
  unfold layerMid hiddenLayer
  rw [truncf_apply, mulf_apply]
  show _ * Ideal.logistic _ = silu _
  rw [hz]
  rfl

theorem layerLast_apply (A : FVec Ideal S4096x200 .bf16) (W : Vec Ideal S1x200x62 .bf16) (B : Vec Ideal S1x1x62 .f32)
    (r : Fin 4096) (o : Fin 62) :
    layerLast A W B (ix2 r o) = affineLayer (fun k => A (ix2 r k)) (mat W 0) (vec B 0) o := by
  unfold layerLast
  rw [addf_apply, matmul_last, broadcastTo_1b_ab_apply, shapeCast_1ab_ab_apply]
  unfold affineLayer mat vec
  refine congrArg (· + _) (Finset.sum_congr rfl fun k _ => ?_)
  rw [shapeCast_1ab_ab_apply]

/-- Entry (r, o) of a block's raw outputs: the network of Spec on row r of the input block, with the member's
    parameter blocks. -/
theorem rawOutputs_apply (P0 : Vec Ideal S1x4096x38 .f32) (P1 : Vec Ideal S1x38x200 .bf16) (P2 : Vec Ideal S1x1x200 .f32)
    (P3 : Vec Ideal S1x200x200 .bf16) (P4 : Vec Ideal S1x1x200 .f32) (P5 : Vec Ideal S1x200x200 .bf16)
    (P6 : Vec Ideal S1x1x200 .f32) (P7 : Vec Ideal S1x200x200 .bf16) (P8 : Vec Ideal S1x1x200 .f32)
    (P9 : Vec Ideal S1x200x62 .bf16) (P10 : Vec Ideal S1x1x62 .f32) (r : Fin 4096) (o : Fin 62) :
    k0_pay4 (k0_pay3 P0 P1 P2 P3 P4 P5 P6) P7 P8 P9 P10 (ix2 r o)
      = outputs (row P0 0 r) (mat P1 0) (vec P2 0) (mat P3 0) (vec P4 0) (mat P5 0) (vec P6 0) (mat P7 0) (vec P8 0)
          (mat P9 0) (vec P10 0) o := by
  rw [pay4_eq, pay3_eq, layerLast_apply]
  unfold outputs
  simp only [layerMid_apply, layerFirst_apply, inputRows_apply]

/-! ## The clamp of a block -/

/-- softplus of a [4096, 31] block in the body's spelling, z its zero scalar. -/
def softplusBlock (z : Ideal .f32) (x : FVec Ideal S4096x31 .f32) : FVec Ideal S4096x31 .f32 :=
  select (cmpf .one (subf x (broadcast S4096x31 z)) (subf x (broadcast S4096x31 z))) (addf x (broadcast S4096x31 z))
    (addf (maximumf x (broadcast S4096x31 z))
      (log1p (exp (subf (broadcast S4096x31 z) (absf (subf x (broadcast S4096x31 z)))))))

/-- The clamped log-variance block from the block of raw outputs and the two bound rows. -/
def clampBlock (out : FVec Ideal S4096x62 .f32) (hi lo : Vec Ideal S1x31 .f32) : FVec Ideal S1x4096x31 .f32 :=
  shapeCast S1x4096x31
    (addf (broadcastTo S4096x31 lo broadcasts_S1x31_S4096x31 : FVec Ideal S4096x31 .f32)
      (softplusBlock (Scalar.ofBits .f32 0x00000000#32)
        (subf
          (subf (broadcastTo S4096x31 hi broadcasts_S1x31_S4096x31 : FVec Ideal S4096x31 .f32)
            (softplusBlock (Scalar.ofBits .f32 0x00000000#32)
              (subf (broadcastTo S4096x31 hi broadcasts_S1x31_S4096x31 : FVec Ideal S4096x31 .f32)
                (extractStridedSlice S4096x31 ![0, 31] out slices_S4096x62_o0_31_S4096x31 : FVec Ideal S4096x31 .f32))))
          (broadcastTo S4096x31 lo broadcasts_S1x31_S4096x31 : FVec Ideal S4096x31 .f32))))
    shapeCasts_S4096x31_S1x4096x31

/-- The second store's payload is the clamp of the raw outputs. -/
theorem pay2_eq (H : FVec Ideal S4096x200 .bf16) (P7 : Vec Ideal S1x200x200 .bf16) (P8 : Vec Ideal S1x1x200 .f32)
    (P9 : Vec Ideal S1x200x62 .bf16) (P10 : Vec Ideal S1x1x62 .f32) (hi lo : Vec Ideal S1x31 .f32) :
    k0_pay2 lo (k0_pay6 H P7 P8 P9 P10 hi lo) = clampBlock (k0_pay4 H P7 P8 P9 P10) hi lo := rfl

theorem softplusBlock_apply (x : FVec Ideal S4096x31 .f32) (i : S4096x31.Idx) :
    softplusBlock (Scalar.ofBits .f32 0x00000000#32) x i = softplus (x i) := by
  show Scalar.select
      (Ideal.cmp .one (x i - Ideal.ofBits .f32 0x00000000#32) (x i - Ideal.ofBits .f32 0x00000000#32))
      (x i + Ideal.ofBits .f32 0x00000000#32)
      (max (x i) (Ideal.ofBits .f32 0x00000000#32) + Ideal.log1p (Ideal.exp (Ideal.ofBits .f32 0x00000000#32
        - max (x i - Ideal.ofBits .f32 0x00000000#32) (-(x i - Ideal.ofBits .f32 0x00000000#32))))) = softplus (x i)
  rw [Ideal.ofBits_zero_f32]
  exact softplus_of_zero_sub (x i)

/-- Entry (r, j) of the clamped block: the soft clamp of raw output 31 + j of row r between entries j of the bound rows. -/
theorem clampBlock_apply (out : FVec Ideal S4096x62 .f32) (hi lo : Vec Ideal S1x31 .f32) (r : Fin 4096) (j : Fin 31) :
    clampBlock out hi lo (ix3 (0 : Fin 1) r j)
      = softClamp (hi (ix2 (0 : Fin 1) j)) (lo (ix2 (0 : Fin 1) j)) (out (ix2 r ⟨31 + j.val, by omega⟩)) := by
  unfold clampBlock
  rw [shapeCast_ab_1ab_apply, addf_apply, softplusBlock_apply, subf_apply, subf_apply, softplusBlock_apply, subf_apply]
  simp only [broadcastTo_1b_ab_apply, slice2_axis1_eq]
  rfl

end Cert.KernelIdeal.RowValue

end
-- ==== Proof.KernelArray.lean ====
/-
  From grid points to whole arrays.

  The grid has 5 · 16 points; point (e, b) holds rows 4096 b … 4096 b + 4095 of member e's input, member e's ten
  parameter blocks (whole matrices and bias rows, whatever b is), and the two bound rows, and writes block (e, b) of
  each result.  So what the point writes at block entry (r, j) is the row function of Spec at member e and batch row
  4096 b + r, and since the 80 blocks tile [5, 65536, 31], each result array ends as the function of Spec of the
  argument arrays.  The five weight arrays reach the grid through a change of float format made before it, which is
  the identity on the extended reals.
-/
import proofs.«141821_j82394652606605_1_alg».proof.Proof.KernelBlocks
import proofs.«141821_j82394652606605_1_alg».proof.Proof.KernelRow
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
  Idealize.ShloMosaic.ValueIdx Cert.Mlp Cert.KernelIdeal.RowValue
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-! ## What the body leaves in the two result blocks, over arbitrary input blocks -/

/-- Entry (r, j) of the mean block: raw output j of row r. -/
theorem mean_block (x0 : Vec Ideal S1x4096x38 .f32) (x1 : Vec Ideal S1x38x200 .bf16) (x2 : Vec Ideal S1x1x200 .f32)
    (x3 : Vec Ideal S1x200x200 .bf16) (x4 : Vec Ideal S1x1x200 .f32) (x5 : Vec Ideal S1x200x200 .bf16) (x6 : Vec Ideal S1x1x200 .f32)
    (x7 : Vec Ideal S1x200x200 .bf16) (x8 : Vec Ideal S1x1x200 .f32) (x9 : Vec Ideal S1x200x62 .bf16) (x10 : Vec Ideal S1x1x62 .f32)
    (x11 x12 : Vec Ideal S1x31 .f32) (r : Fin 4096) (j : Fin 31) :
    out0_13 x0 x1 x2 x3 x4 x5 x6 x7 x8 x9 x10 x11 x12 (ix3 (0 : Fin 1) r j)
      = outputs (row x0 0 r) (mat x1 0) (vec x2 0) (mat x3 0) (vec x4 0) (mat x5 0) (vec x6 0) (mat x7 0) (vec x8 0)
          (mat x9 0) (vec x10 0) ⟨j.val, by omega⟩ := by
  unfold out0_13
  rw [ValueP.canon13_eq]
  have e1 : ValueP.ix13_0 (ix3 (0 : Fin 1) r j) = ix2 r (⟨j.val, by omega⟩ : Fin 62) :=
    funext fun a => by match a with | ⟨0, _⟩ => rfl | ⟨1, _⟩ => rfl
  show k0_pay4 (k0_pay3 (View.ld x0 r0_0) (View.ld x1 r0_1) (View.ld x2 r0_2) (View.ld x3 r0_3) (View.ld x4 r0_2)
      (View.ld x5 r0_3) (View.ld x6 r0_2)) (View.ld x7 r0_3) (View.ld x8 r0_2) (View.ld x9 r0_4) (View.ld x10 r0_5)
      (ValueP.ix13_0 (ix3 (0 : Fin 1) r j)) = _
  simp only [View.ld_unit_zero (S := S1x4096x38) zero3,
    View.ld_unit_zero (S := S1x38x200) zero3,
    View.ld_unit_zero (S := S1x1x200) zero3,
    View.ld_unit_zero (S := S1x200x200) zero3,
    View.ld_unit_zero (S := S1x200x62) zero3,
    View.ld_unit_zero (S := S1x1x62) zero3]
  rw [e1, rawOutputs_apply]

/-- Entry (r, j) of the log-variance block: raw output 31 + j of row r, clamped between entries j of the bound rows. -/
theorem logvar_block (x0 : Vec Ideal S1x4096x38 .f32) (x1 : Vec Ideal S1x38x200 .bf16) (x2 : Vec Ideal S1x1x200 .f32)
    (x3 : Vec Ideal S1x200x200 .bf16) (x4 : Vec Ideal S1x1x200 .f32) (x5 : Vec Ideal S1x200x200 .bf16) (x6 : Vec Ideal S1x1x200 .f32)
    (x7 : Vec Ideal S1x200x200 .bf16) (x8 : Vec Ideal S1x1x200 .f32) (x9 : Vec Ideal S1x200x62 .bf16) (x10 : Vec Ideal S1x1x62 .f32)
    (x11 x12 : Vec Ideal S1x31 .f32) (r : Fin 4096) (j : Fin 31) :
    out0_14 x0 x1 x2 x3 x4 x5 x6 x7 x8 x9 x10 x11 x12 (ix3 (0 : Fin 1) r j)
      = softClamp (x11 (ix2 (0 : Fin 1) j)) (x12 (ix2 (0 : Fin 1) j))
          (outputs (row x0 0 r) (mat x1 0) (vec x2 0) (mat x3 0) (vec x4 0) (mat x5 0) (vec x6 0) (mat x7 0) (vec x8 0)
          (mat x9 0) (vec x10 0) ⟨31 + j.val, by omega⟩) := by
  unfold out0_14
  rw [View.canon_unit_zero zero3]
  simp only [View.ld_unit_zero (S := S1x4096x38) zero3,
    View.ld_unit_zero (S := S1x38x200) zero3,
    View.ld_unit_zero (S := S1x1x200) zero3,
    View.ld_unit_zero (S := S1x200x200) zero3,
    View.ld_unit_zero (S := S1x200x62) zero3,
    View.ld_unit_zero (S := S1x1x62) zero3,
    View.ld_unit_zero (S := S1x31) zero2]
  rw [pay2_eq, clampBlock_apply, rawOutputs_apply]

/-! ## The arrays the grid reads -/

theorem V_main_v0 (c : Dev nD) : (V m c main_v0 : S5x38x200.Idx → EReal) = m ((c : Thread nD τ).loc main_arg1) := by
  dsimp only [V, hostOps0]
  after_results
  rfl

theorem V_main_v1 (c : Dev nD) : (V m c main_v1 : S5x200x200.Idx → EReal) = m ((c : Thread nD τ).loc main_arg3) := by
  dsimp only [V, hostOps0]
  after_results
  rfl

theorem V_main_v2 (c : Dev nD) : (V m c main_v2 : S5x200x200.Idx → EReal) = m ((c : Thread nD τ).loc main_arg5) := by
  dsimp only [V, hostOps0]
  after_results
  rfl

theorem V_main_v3 (c : Dev nD) : (V m c main_v3 : S5x200x200.Idx → EReal) = m ((c : Thread nD τ).loc main_arg7) := by
  dsimp only [V, hostOps0]
  after_results
  rfl

theorem V_main_v4 (c : Dev nD) : (V m c main_v4 : S5x200x62.Idx → EReal) = m ((c : Thread nD τ).loc main_arg9) := by
  dsimp only [V, hostOps0]
  after_results
  rfl

/-! ## Where each window's block sits at a point

Decided over the 80 points: the input rows and both results move with the point (member, row block); every
parameter block follows the member only; the bound rows do not move. -/

theorem idx_facts : ∀ t : Fin cfg0.N,
    win0_0.index t (0 : Fin 3) = win0_13.index t (0 : Fin 3) ∧ win0_0.index t (1 : Fin 3) = win0_13.index t (1 : Fin 3)
    ∧ win0_0.index t (2 : Fin 3) = 0
    ∧ (win0_1.index t (0 : Fin 3) = win0_13.index t (0 : Fin 3) ∧ win0_1.index t (1 : Fin 3) = 0 ∧ win0_1.index t (2 : Fin 3) = 0)
    ∧ (win0_2.index t (0 : Fin 3) = win0_13.index t (0 : Fin 3) ∧ win0_2.index t (1 : Fin 3) = 0 ∧ win0_2.index t (2 : Fin 3) = 0)
    ∧ (win0_3.index t (0 : Fin 3) = win0_13.index t (0 : Fin 3) ∧ win0_3.index t (1 : Fin 3) = 0 ∧ win0_3.index t (2 : Fin 3) = 0)
    ∧ (win0_4.index t (0 : Fin 3) = win0_13.index t (0 : Fin 3) ∧ win0_4.index t (1 : Fin 3) = 0 ∧ win0_4.index t (2 : Fin 3) = 0)
    ∧ (win0_5.index t (0 : Fin 3) = win0_13.index t (0 : Fin 3) ∧ win0_5.index t (1 : Fin 3) = 0 ∧ win0_5.index t (2 : Fin 3) = 0)
    ∧ (win0_6.index t (0 : Fin 3) = win0_13.index t (0 : Fin 3) ∧ win0_6.index t (1 : Fin 3) = 0 ∧ win0_6.index t (2 : Fin 3) = 0)
    ∧ (win0_7.index t (0 : Fin 3) = win0_13.index t (0 : Fin 3) ∧ win0_7.index t (1 : Fin 3) = 0 ∧ win0_7.index t (2 : Fin 3) = 0)
    ∧ (win0_8.index t (0 : Fin 3) = win0_13.index t (0 : Fin 3) ∧ win0_8.index t (1 : Fin 3) = 0 ∧ win0_8.index t (2 : Fin 3) = 0)
    ∧ (win0_9.index t (0 : Fin 3) = win0_13.index t (0 : Fin 3) ∧ win0_9.index t (1 : Fin 3) = 0 ∧ win0_9.index t (2 : Fin 3) = 0)
    ∧ (win0_10.index t (0 : Fin 3) = win0_13.index t (0 : Fin 3) ∧ win0_10.index t (1 : Fin 3) = 0 ∧ win0_10.index t (2 : Fin 3) = 0)
    ∧ (win0_11.index t (0 : Fin 2) = 0 ∧ win0_11.index t (1 : Fin 2) = 0)
    ∧ (win0_12.index t (0 : Fin 2) = 0 ∧ win0_12.index t (1 : Fin 2) = 0)
    ∧ (win0_14.index t (0 : Fin 3) = win0_13.index t (0 : Fin 3) ∧ win0_14.index t (1 : Fin 3) = win0_13.index t (1 : Fin 3)
        ∧ win0_14.index t (2 : Fin 3) = 0)
    ∧ win0_13.index t (2 : Fin 3) = 0 ∧ win0_13.index t (0 : Fin 3) ≤ 4 ∧ win0_13.index t (1 : Fin 3) ≤ 15 :=
  (by decide +kernel : ∀ t : Fin grid0.N, _)

/-- Every block (member, row block) of a result is some point's. -/
theorem idx_onto13 : ∀ (q0 : Fin 5) (q1 : Fin 16), ∃ t : Fin cfg0.N, win0_13.index t = ![q0.val, q1.val, 0] :=
  (by decide +kernel : ∀ (q0 : Fin 5) (q1 : Fin 16), ∃ t : Fin grid0.N, win0_13.index t = ![q0.val, q1.val, 0])

theorem idx_onto14 : ∀ (q0 : Fin 5) (q1 : Fin 16), ∃ t : Fin cfg0.N, win0_14.index t = ![q0.val, q1.val, 0] :=
  (by decide +kernel : ∀ (q0 : Fin 5) (q1 : Fin 16), ∃ t : Fin grid0.N, win0_14.index t = ![q0.val, q1.val, 0])

/-! ## The blocks a point holds, as rows, matrices and bias rows of the argument arrays -/

/-- Row r of the point's input block is batch row R of member e, when the block sits at (e, R - r). -/
theorem rows_block (c : Dev nD) (t : Fin cfg0.N) (e : Fin 5) (R : Fin 65536) (r : Fin 4096)
    (h0 : win0_0.index t (0 : Fin 3) = e.val) (h1 : win0_0.index t (1 : Fin 3) * 4096 + r.val = R.val)
    (h2 : win0_0.index t (2 : Fin 3) = 0) :
    row (iblk m c 0 t : Vec Ideal S1x4096x38 .f32) 0 r = row (m ((c : Thread nD τ).loc main_arg0)) e R := by
  funext k
  show V m c main_arg0 (((cfg0.win 0).blk t).view.emb (ix3 (0 : Fin 1) r k))
    = m ((c : Thread nD τ).loc main_arg0) (ix3 e R k)
  rw [V_main_arg0]
  refine congrArg _ (funext fun a => Fin.ext ?_)
  match a with
  | ⟨0, _⟩ => show win0_0.index t (0 : Fin 3) * 1 + 1 * 0 = e.val; omega
  | ⟨1, _⟩ => show win0_0.index t (1 : Fin 3) * 4096 + 1 * r.val = R.val; omega
  | ⟨2, _⟩ => show win0_0.index t (2 : Fin 3) * 38 + 1 * k.val = k.val; omega

theorem weights1 (c : Dev nD) (t : Fin cfg0.N) (e : Fin 5) (h0 : win0_1.index t (0 : Fin 3) = e.val)
    (h1 : win0_1.index t (1 : Fin 3) = 0) (h2 : win0_1.index t (2 : Fin 3) = 0) :
    mat (iblk m c 1 t : Vec Ideal S1x38x200 .bf16) 0 = mat (m ((c : Thread nD τ).loc main_arg1)) e := by
  funext k o
  show (V m c main_v0 : S5x38x200.Idx → EReal) (((cfg0.win 1).blk t).view.emb (ix3 (0 : Fin 1) k o))
    = m ((c : Thread nD τ).loc main_arg1) (ix3 e k o)
  rw [V_main_v0]
  refine congrArg _ (funext fun a => Fin.ext ?_)
  match a with
  | ⟨0, _⟩ => show win0_1.index t (0 : Fin 3) * 1 + 1 * 0 = e.val; omega
  | ⟨1, _⟩ => show win0_1.index t (1 : Fin 3) * 38 + 1 * k.val = k.val; omega
  | ⟨2, _⟩ => show win0_1.index t (2 : Fin 3) * 200 + 1 * o.val = o.val; omega

theorem weights3 (c : Dev nD) (t : Fin cfg0.N) (e : Fin 5) (h0 : win0_3.index t (0 : Fin 3) = e.val)
    (h1 : win0_3.index t (1 : Fin 3) = 0) (h2 : win0_3.index t (2 : Fin 3) = 0) :
    mat (iblk m c 3 t : Vec Ideal S1x200x200 .bf16) 0 = mat (m ((c : Thread nD τ).loc main_arg3)) e := by
  funext k o
  show (V m c main_v1 : S5x200x200.Idx → EReal) (((cfg0.win 3).blk t).view.emb (ix3 (0 : Fin 1) k o))
    = m ((c : Thread nD τ).loc main_arg3) (ix3 e k o)
  rw [V_main_v1]
  refine congrArg _ (funext fun a => Fin.ext ?_)
  match a with
  | ⟨0, _⟩ => show win0_3.index t (0 : Fin 3) * 1 + 1 * 0 = e.val; omega
  | ⟨1, _⟩ => show win0_3.index t (1 : Fin 3) * 200 + 1 * k.val = k.val; omega
  | ⟨2, _⟩ => show win0_3.index t (2 : Fin 3) * 200 + 1 * o.val = o.val; omega

theorem weights5 (c : Dev nD) (t : Fin cfg0.N) (e : Fin 5) (h0 : win0_5.index t (0 : Fin 3) = e.val)
    (h1 : win0_5.index t (1 : Fin 3) = 0) (h2 : win0_5.index t (2 : Fin 3) = 0) :
    mat (iblk m c 5 t : Vec Ideal S1x200x200 .bf16) 0 = mat (m ((c : Thread nD τ).loc main_arg5)) e := by
  funext k o
  show (V m c main_v2 : S5x200x200.Idx → EReal) (((cfg0.win 5).blk t).view.emb (ix3 (0 : Fin 1) k o))
    = m ((c : Thread nD τ).loc main_arg5) (ix3 e k o)
  rw [V_main_v2]
  refine congrArg _ (funext fun a => Fin.ext ?_)
  match a with
  | ⟨0, _⟩ => show win0_5.index t (0 : Fin 3) * 1 + 1 * 0 = e.val; omega
  | ⟨1, _⟩ => show win0_5.index t (1 : Fin 3) * 200 + 1 * k.val = k.val; omega
  | ⟨2, _⟩ => show win0_5.index t (2 : Fin 3) * 200 + 1 * o.val = o.val; omega

theorem weights7 (c : Dev nD) (t : Fin cfg0.N) (e : Fin 5) (h0 : win0_7.index t (0 : Fin 3) = e.val)
    (h1 : win0_7.index t (1 : Fin 3) = 0) (h2 : win0_7.index t (2 : Fin 3) = 0) :
    mat (iblk m c 7 t : Vec Ideal S1x200x200 .bf16) 0 = mat (m ((c : Thread nD τ).loc main_arg7)) e := by
  funext k o
  show (V m c main_v3 : S5x200x200.Idx → EReal) (((cfg0.win 7).blk t).view.emb (ix3 (0 : Fin 1) k o))
    = m ((c : Thread nD τ).loc main_arg7) (ix3 e k o)
  rw [V_main_v3]
  refine congrArg _ (funext fun a => Fin.ext ?_)
  match a with
  | ⟨0, _⟩ => show win0_7.index t (0 : Fin 3) * 1 + 1 * 0 = e.val; omega
  | ⟨1, _⟩ => show win0_7.index t (1 : Fin 3) * 200 + 1 * k.val = k.val; omega
  | ⟨2, _⟩ => show win0_7.index t (2 : Fin 3) * 200 + 1 * o.val = o.val; omega

theorem weights9 (c : Dev nD) (t : Fin cfg0.N) (e : Fin 5) (h0 : win0_9.index t (0 : Fin 3) = e.val)
    (h1 : win0_9.index t (1 : Fin 3) = 0) (h2 : win0_9.index t (2 : Fin 3) = 0) :
    mat (iblk m c 9 t : Vec Ideal S1x200x62 .bf16) 0 = mat (m ((c : Thread nD τ).loc main_arg9)) e := by
  funext k o
  show (V m c main_v4 : S5x200x62.Idx → EReal) (((cfg0.win 9).blk t).view.emb (ix3 (0 : Fin 1) k o))
    = m ((c : Thread nD τ).loc main_arg9) (ix3 e k o)
  rw [V_main_v4]
  refine congrArg _ (funext fun a => Fin.ext ?_)
  match a with
  | ⟨0, _⟩ => show win0_9.index t (0 : Fin 3) * 1 + 1 * 0 = e.val; omega
  | ⟨1, _⟩ => show win0_9.index t (1 : Fin 3) * 200 + 1 * k.val = k.val; omega
  | ⟨2, _⟩ => show win0_9.index t (2 : Fin 3) * 62 + 1 * o.val = o.val; omega

theorem bias2 (c : Dev nD) (t : Fin cfg0.N) (e : Fin 5) (h0 : win0_2.index t (0 : Fin 3) = e.val)
    (h1 : win0_2.index t (1 : Fin 3) = 0) (h2 : win0_2.index t (2 : Fin 3) = 0) :
    vec (iblk m c 2 t : Vec Ideal S1x1x200 .f32) 0 = vec (m ((c : Thread nD τ).loc main_arg2)) e := by
  funext o
  show V m c main_arg2 (((cfg0.win 2).blk t).view.emb (ix3 (0 : Fin 1) (0 : Fin 1) o))
    = m ((c : Thread nD τ).loc main_arg2) (ix3 e (0 : Fin 1) o)
  rw [V_main_arg2]
  refine congrArg _ (funext fun a => Fin.ext ?_)
  match a with
  | ⟨0, _⟩ => show win0_2.index t (0 : Fin 3) * 1 + 1 * 0 = e.val; omega
  | ⟨1, _⟩ => show win0_2.index t (1 : Fin 3) * 1 + 1 * 0 = 0; omega
  | ⟨2, _⟩ => show win0_2.index t (2 : Fin 3) * 200 + 1 * o.val = o.val; omega

theorem bias4 (c : Dev nD) (t : Fin cfg0.N) (e : Fin 5) (h0 : win0_4.index t (0 : Fin 3) = e.val)
    (h1 : win0_4.index t (1 : Fin 3) = 0) (h2 : win0_4.index t (2 : Fin 3) = 0) :
    vec (iblk m c 4 t : Vec Ideal S1x1x200 .f32) 0 = vec (m ((c : Thread nD τ).loc main_arg4)) e := by
  funext o
  show V m c main_arg4 (((cfg0.win 4).blk t).view.emb (ix3 (0 : Fin 1) (0 : Fin 1) o))
    = m ((c : Thread nD τ).loc main_arg4) (ix3 e (0 : Fin 1) o)
  rw [V_main_arg4]
  refine congrArg _ (funext fun a => Fin.ext ?_)
  match a with
  | ⟨0, _⟩ => show win0_4.index t (0 : Fin 3) * 1 + 1 * 0 = e.val; omega
  | ⟨1, _⟩ => show win0_4.index t (1 : Fin 3) * 1 + 1 * 0 = 0; omega
  | ⟨2, _⟩ => show win0_4.index t (2 : Fin 3) * 200 + 1 * o.val = o.val; omega

theorem bias6 (c : Dev nD) (t : Fin cfg0.N) (e : Fin 5) (h0 : win0_6.index t (0 : Fin 3) = e.val)
    (h1 : win0_6.index t (1 : Fin 3) = 0) (h2 : win0_6.index t (2 : Fin 3) = 0) :
    vec (iblk m c 6 t : Vec Ideal S1x1x200 .f32) 0 = vec (m ((c : Thread nD τ).loc main_arg6)) e := by
  funext o
  show V m c main_arg6 (((cfg0.win 6).blk t).view.emb (ix3 (0 : Fin 1) (0 : Fin 1) o))
    = m ((c : Thread nD τ).loc main_arg6) (ix3 e (0 : Fin 1) o)
  rw [V_main_arg6]
  refine congrArg _ (funext fun a => Fin.ext ?_)
  match a with
  | ⟨0, _⟩ => show win0_6.index t (0 : Fin 3) * 1 + 1 * 0 = e.val; omega
  | ⟨1, _⟩ => show win0_6.index t (1 : Fin 3) * 1 + 1 * 0 = 0; omega
  | ⟨2, _⟩ => show win0_6.index t (2 : Fin 3) * 200 + 1 * o.val = o.val; omega

theorem bias8 (c : Dev nD) (t : Fin cfg0.N) (e : Fin 5) (h0 : win0_8.index t (0 : Fin 3) = e.val)
    (h1 : win0_8.index t (1 : Fin 3) = 0) (h2 : win0_8.index t (2 : Fin 3) = 0) :
    vec (iblk m c 8 t : Vec Ideal S1x1x200 .f32) 0 = vec (m ((c : Thread nD τ).loc main_arg8)) e := by
  funext o
  show V m c main_arg8 (((cfg0.win 8).blk t).view.emb (ix3 (0 : Fin 1) (0 : Fin 1) o))
    = m ((c : Thread nD τ).loc main_arg8) (ix3 e (0 : Fin 1) o)
  rw [V_main_arg8]
  refine congrArg _ (funext fun a => Fin.ext ?_)
  match a with
  | ⟨0, _⟩ => show win0_8.index t (0 : Fin 3) * 1 + 1 * 0 = e.val; omega
  | ⟨1, _⟩ => show win0_8.index t (1 : Fin 3) * 1 + 1 * 0 = 0; omega
  | ⟨2, _⟩ => show win0_8.index t (2 : Fin 3) * 200 + 1 * o.val = o.val; omega

theorem bias10 (c : Dev nD) (t : Fin cfg0.N) (e : Fin 5) (h0 : win0_10.index t (0 : Fin 3) = e.val)
    (h1 : win0_10.index t (1 : Fin 3) = 0) (h2 : win0_10.index t (2 : Fin 3) = 0) :
    vec (iblk m c 10 t : Vec Ideal S1x1x62 .f32) 0 = vec (m ((c : Thread nD τ).loc main_arg10)) e := by
  funext o
  show V m c main_arg10 (((cfg0.win 10).blk t).view.emb (ix3 (0 : Fin 1) (0 : Fin 1) o))
    = m ((c : Thread nD τ).loc main_arg10) (ix3 e (0 : Fin 1) o)
  rw [V_main_arg10]
  refine congrArg _ (funext fun a => Fin.ext ?_)
  match a with
  | ⟨0, _⟩ => show win0_10.index t (0 : Fin 3) * 1 + 1 * 0 = e.val; omega
  | ⟨1, _⟩ => show win0_10.index t (1 : Fin 3) * 1 + 1 * 0 = 0; omega
  | ⟨2, _⟩ => show win0_10.index t (2 : Fin 3) * 62 + 1 * o.val = o.val; omega

/-- The bound rows are read whole at every point. -/
theorem bound11 (c : Dev nD) (t : Fin cfg0.N) (j : Fin 31) (h0 : win0_11.index t (0 : Fin 2) = 0)
    (h1 : win0_11.index t (1 : Fin 2) = 0) :
    (iblk m c 11 t : Vec Ideal S1x31 .f32) (ix2 (0 : Fin 1) j) = m ((c : Thread nD τ).loc main_arg11) (ix2 (0 : Fin 1) j) := by
  show V m c main_arg11 (((cfg0.win 11).blk t).view.emb (ix2 (0 : Fin 1) j)) = _
  rw [V_main_arg11]
  refine congrArg _ (funext fun a => Fin.ext ?_)
  match a with
  | ⟨0, _⟩ => show win0_11.index t (0 : Fin 2) * 1 + 1 * 0 = 0; omega
  | ⟨1, _⟩ => show win0_11.index t (1 : Fin 2) * 31 + 1 * j.val = j.val; omega

theorem bound12 (c : Dev nD) (t : Fin cfg0.N) (j : Fin 31) (h0 : win0_12.index t (0 : Fin 2) = 0)
    (h1 : win0_12.index t (1 : Fin 2) = 0) :
    (iblk m c 12 t : Vec Ideal S1x31 .f32) (ix2 (0 : Fin 1) j) = m ((c : Thread nD τ).loc main_arg12) (ix2 (0 : Fin 1) j) := by
  show V m c main_arg12 (((cfg0.win 12).blk t).view.emb (ix2 (0 : Fin 1) j)) = _
  rw [V_main_arg12]
  refine congrArg _ (funext fun a => Fin.ext ?_)
  match a with
  | ⟨0, _⟩ => show win0_12.index t (0 : Fin 2) * 1 + 1 * 0 = 0; omega
  | ⟨1, _⟩ => show win0_12.index t (1 : Fin 2) * 31 + 1 * j.val = j.val; omega

/-! ## The blocks tile the arrays -/

theorem mem_blk13 (t : Fin cfg0.N) (i : S5x65536x31.Idx) :
    i ∈ ((cfg0.win 13).blk t).view.set ↔ ∀ a : Fin 3, win0_13.index t a * S1x4096x31.size a ≤ (i a).val
      ∧ (i a).val < win0_13.index t a * S1x4096x31.size a + S1x4096x31.size a := by
  show i ∈ ((View.whole main_v5_0).slice (win0_13.rect t)).set ↔ _
  rw [View.set_slice_whole, Rect.mem_set_unit]
  exact Iff.rfl

theorem mem_blk14 (t : Fin cfg0.N) (i : S5x65536x31.Idx) :
    i ∈ ((cfg0.win 14).blk t).view.set ↔ ∀ a : Fin 3, win0_14.index t a * S1x4096x31.size a ≤ (i a).val
      ∧ (i a).val < win0_14.index t a * S1x4096x31.size a + S1x4096x31.size a := by
  show i ∈ ((View.whole main_v5_1).slice (win0_14.rect t)).set ↔ _
  rw [View.set_slice_whole, Rect.mem_set_unit]
  exact Iff.rfl

/-- Entry (e, R, j) lies in the block of the point with member e and row block R / 4096. -/
theorem cover13 (i : S5x65536x31.Idx) :
    ∃ t : Fin cfg0.N, (cfg0.win 13).flush t = true ∧ i ∈ ((cfg0.win 13).blk t).view.set := by
  have hi0 : (i 0).val < 5 := (i 0).isLt
  have hi1 : (i 1).val < 65536 := (i 1).isLt
  have hi2 : (i 2).val < 31 := (i 2).isLt
  obtain ⟨t, ht⟩ := idx_onto13 ⟨(i 0).val, hi0⟩ ⟨(i 1).val / 4096, by omega⟩
  have q0 : win0_13.index t (0 : Fin 3) = (i 0).val := congrFun ht 0
  have q1 : win0_13.index t (1 : Fin 3) = (i 1).val / 4096 := congrFun ht 1
  have q2 : win0_13.index t (2 : Fin 3) = 0 := congrFun ht 2
  refine ⟨t, flush0_13 t, ?_⟩
  rw [mem_blk13]
  intro a
  match a with
  | ⟨0, _⟩ => show win0_13.index t (0 : Fin 3) * 1 ≤ (i 0).val ∧ (i 0).val < win0_13.index t (0 : Fin 3) * 1 + 1; omega
  | ⟨1, _⟩ => show win0_13.index t (1 : Fin 3) * 4096 ≤ (i 1).val ∧ (i 1).val < win0_13.index t (1 : Fin 3) * 4096 + 4096; omega
  | ⟨2, _⟩ => show win0_13.index t (2 : Fin 3) * 31 ≤ (i 2).val ∧ (i 2).val < win0_13.index t (2 : Fin 3) * 31 + 31; omega

theorem cover14 (i : S5x65536x31.Idx) :
    ∃ t : Fin cfg0.N, (cfg0.win 14).flush t = true ∧ i ∈ ((cfg0.win 14).blk t).view.set := by
  have hi0 : (i 0).val < 5 := (i 0).isLt
  have hi1 : (i 1).val < 65536 := (i 1).isLt
  have hi2 : (i 2).val < 31 := (i 2).isLt
  obtain ⟨t, ht⟩ := idx_onto14 ⟨(i 0).val, hi0⟩ ⟨(i 1).val / 4096, by omega⟩
  have q0 : win0_14.index t (0 : Fin 3) = (i 0).val := congrFun ht 0
  have q1 : win0_14.index t (1 : Fin 3) = (i 1).val / 4096 := congrFun ht 1
  have q2 : win0_14.index t (2 : Fin 3) = 0 := congrFun ht 2
  refine ⟨t, flush0_14 t, ?_⟩
  rw [mem_blk14]
  intro a
  match a with
  | ⟨0, _⟩ => show win0_14.index t (0 : Fin 3) * 1 ≤ (i 0).val ∧ (i 0).val < win0_14.index t (0 : Fin 3) * 1 + 1; omega
  | ⟨1, _⟩ => show win0_14.index t (1 : Fin 3) * 4096 ≤ (i 1).val ∧ (i 1).val < win0_14.index t (1 : Fin 3) * 4096 + 4096; omega
  | ⟨2, _⟩ => show win0_14.index t (2 : Fin 3) * 31 ≤ (i 2).val ∧ (i 2).val < win0_14.index t (2 : Fin 3) * 31 + 31; omega

end Cert.KernelIdeal.ArrayValue

end
-- ==== Proof.KernelFinal.lean ====
/-
  What each grid point writes, and the two arrays after the run.

  Point t holds, of the argument arrays, the rows, matrices and bias rows that Proof/KernelArray.lean names; the body
  leaves in its two result blocks what Proof/KernelRow.lean computes from them; so the block the point writes back is
  block t of the mean, respectively log-variance, array of Spec.  The blocks tile the arrays, hence each array ends as
  that function of the arguments.
-/
import proofs.«141821_j82394652606605_1_alg».proof.Proof.KernelArray

noncomputable section

namespace Cert.KernelIdeal.ArrayValue

open Cert.KernelIdeal Cert.KernelIdeal.Gen Idealize.ShloMosaic Idealize.ShloMosaic.TcCoe Idealize.SL.Sem
  Idealize.ShloMosaic.ValueIdx Cert.Mlp Cert.KernelIdeal.RowValue
open Idealize.ShloMosaic.Pipeline (Dat)

variable (m : (ℓ : Loc nD τ sig) → Buf (Elt Ideal) ℓ) (ρ : Dev nD → PrngReg)

/-! ## What a point writes -/

/-- Entry (r, j) of the mean block a point writes: the mean of Spec at the member, batch row and column the entry
    has in the array. -/
theorem mean_point (c : Dev nD) (t : Fin cfg0.N) (e : Fin 5) (R : Fin 65536) (J : Fin 31) (r : Fin 4096) (j : Fin 31)
    (he : win0_13.index t (0 : Fin 3) * 1 + 1 * 0 = e.val) (hR : win0_13.index t (1 : Fin 3) * 4096 + 1 * r.val = R.val)
    (hJ : win0_13.index t (2 : Fin 3) * 31 + 1 * j.val = J.val) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) r j)
      = meanAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) e R J := by
  have he' : win0_13.index t (0 : Fin 3) = e.val := by omega
  have hR' : win0_13.index t (1 : Fin 3) * 4096 + r.val = R.val := by omega
  obtain ⟨a0, a1, a2, ⟨b10, b11, b12⟩, ⟨b20, b21, b22⟩, ⟨b30, b31, b32⟩, ⟨b40, b41, b42⟩, ⟨b50, b51, b52⟩, ⟨b60, b61, b62⟩,
    ⟨b70, b71, b72⟩, ⟨b80, b81, b82⟩, ⟨b90, b91, b92⟩, ⟨bA0, bA1, bA2⟩, ⟨c0, c1⟩, ⟨d0, d1⟩, ⟨f0, f1, f2⟩, g2, g0, g1⟩ := idx_facts t
  have hj : j = J := Fin.ext (by rw [g2, Nat.zero_mul, Nat.zero_add, Nat.one_mul] at hJ; exact hJ)
  subst hj
  refine (mean_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r j).trans ?_
  unfold meanAt outAt
  rw [rows_block m c t e R r (a0.trans he') (by rw [a1]; exact hR') a2,
    weights1 m c t e (b10.trans he') b11 b12, bias2 m c t e (b20.trans he') b21 b22,
    weights3 m c t e (b30.trans he') b31 b32, bias4 m c t e (b40.trans he') b41 b42,
    weights5 m c t e (b50.trans he') b51 b52, bias6 m c t e (b60.trans he') b61 b62,
    weights7 m c t e (b70.trans he') b71 b72, bias8 m c t e (b80.trans he') b81 b82,
    weights9 m c t e (b90.trans he') b91 b92, bias10 m c t e (bA0.trans he') bA1 bA2]

/-- The same for the log-variance block. -/
theorem logvar_point (c : Dev nD) (t : Fin cfg0.N) (e : Fin 5) (R : Fin 65536) (J : Fin 31) (r : Fin 4096) (j : Fin 31)
    (he : win0_14.index t (0 : Fin 3) * 1 + 1 * 0 = e.val) (hR : win0_14.index t (1 : Fin 3) * 4096 + 1 * r.val = R.val)
    (hJ : win0_14.index t (2 : Fin 3) * 31 + 1 * j.val = J.val) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) r j)
      = logvarAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) e R J := by
  have he'' : win0_14.index t (0 : Fin 3) = e.val := by omega
  have hR'' : win0_14.index t (1 : Fin 3) * 4096 + r.val = R.val := by omega
  obtain ⟨a0, a1, a2, ⟨b10, b11, b12⟩, ⟨b20, b21, b22⟩, ⟨b30, b31, b32⟩, ⟨b40, b41, b42⟩, ⟨b50, b51, b52⟩, ⟨b60, b61, b62⟩,
    ⟨b70, b71, b72⟩, ⟨b80, b81, b82⟩, ⟨b90, b91, b92⟩, ⟨bA0, bA1, bA2⟩, ⟨c0, c1⟩, ⟨d0, d1⟩, ⟨f0, f1, f2⟩, g2, g0, g1⟩ := idx_facts t
  have he' : win0_13.index t (0 : Fin 3) = e.val := f0.symm.trans he''
  have hR' : win0_13.index t (1 : Fin 3) * 4096 + r.val = R.val := by rw [← f1]; exact hR''
  have hj : j = J := Fin.ext (by rw [f2, Nat.zero_mul, Nat.zero_add, Nat.one_mul] at hJ; exact hJ)
  subst hj
  refine (logvar_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r j).trans ?_
  unfold logvarAt outAt
  rw [rows_block m c t e R r (a0.trans he') (by rw [a1]; exact hR') a2,
    weights1 m c t e (b10.trans he') b11 b12, bias2 m c t e (b20.trans he') b21 b22,
    weights3 m c t e (b30.trans he') b31 b32, bias4 m c t e (b40.trans he') b41 b42,
    weights5 m c t e (b50.trans he') b51 b52, bias6 m c t e (b60.trans he') b61 b62,
    weights7 m c t e (b70.trans he') b71 b72, bias8 m c t e (b80.trans he') b81 b82,
    weights9 m c t e (b90.trans he') b91 b92, bias10 m c t e (bA0.trans he') bA1 bA2,
    bound11 m c t j c0 c1, bound12 m c t j d0 d1]

/-- What point t writes back to the first result is block t of the mean array. -/
theorem flushed13_eq (c : Dev nD) (t : Fin cfg0.N) :
    (dats m 0 c).flushed 13 t = ((cfg0.win 13).blk t).view.read (Elt Ideal)
      (meanArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [ValueP.flushed13]
  refine funext fun (y : S1x4096x31.Idx) => ?_
  obtain ⟨u, r, j, rfl⟩ : ∃ (u : Fin 1) (r : Fin 4096) (j : Fin 31), y = ix3 u r j := ⟨y 0, y 1, y 2, eq_ix3 y⟩
  have hu : u = 0 := Subsingleton.elim _ _
  subst hu
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) r j)
    = meanArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 13).blk t).view.emb (ix3 (0 : Fin 1) r j))
  unfold meanArr
  exact mean_point m c t _ _ _ r j rfl rfl rfl

/-- What point t writes back to the second result is block t of the log-variance array. -/
theorem flushed14_eq (c : Dev nD) (t : Fin cfg0.N) :
    (dats m 0 c).flushed 14 t = ((cfg0.win 14).blk t).view.read (Elt Ideal)
      (logvarArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  rw [ValueP.flushed14]
  refine funext fun (y : S1x4096x31.Idx) => ?_
  obtain ⟨u, r, j, rfl⟩ : ∃ (u : Fin 1) (r : Fin 4096) (j : Fin 31), y = ix3 u r j := ⟨y 0, y 1, y 2, eq_ix3 y⟩
  have hu : u = 0 := Subsingleton.elim _ _
  subst hu
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) r j)
    = logvarArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (((cfg0.win 14).blk t).view.emb (ix3 (0 : Fin 1) r j))
  unfold logvarArr
  exact logvar_point m c t _ _ _ r j rfl rfl rfl

/-! ## The arrays after the run, and the run -/

theorem final13 (c : Dev nD) : (dats m 0 c).arrAt 13 cfg0.N
    = meanArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 13 _ (fun t _ => flushed13_eq m c t) cover13

theorem final14 (c : Dev nD) : (dats m 0 c).arrAt 14 cfg0.N
    = logvarArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (dats m 0 c).arrAt_eq_of_cover 14 _ (fun t _ => flushed14_eq m c t) cover14

/-- Every weakly fair execution of the tiled program ends with its two results at the mean and the log-variance
    arrays of Spec, and its arguments unchanged. -/
theorem run : θ_run defs (onTc (τ := τ) (main (F := Ideal))) ⟨m, fun _ => 0, ρ⟩ fun r => ∀ c : Dev nD,
      r.2.mem ((c : Thread nD τ).loc main_v5_0) = meanArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v5_1) = logvarArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final13 m c), (h c).2.1.trans (final14 m c), (h c).2.2⟩)
    (ValueP.run_blocks m ρ)

end Cert.KernelIdeal.ArrayValue

end
-- ==== Proof.RefRow.lean ====
/-
  The whole-array program, read at an entry.

  The whole-array program applies each layer to all 5 · 65536 rows at once: a batched matrix product (member e's
  rows against member e's matrix), the member's bias row broadcast over the rows, silu spelt  z · (1 / (1 + e^{-z})),
  and at the end two column slices of the 62 raw outputs, the second clamped between the two bound rows, which are
  broadcast over members and rows.  Read at member e, row r and column o, each stage is the layer function of Spec
  on row r of the stage before; the clamp's softplus is spelt with the unordered comparison  x - 0 ≠ x - 0  and a
  negated absolute value, which Spec shows to be softplus.
-/
import proofs.«141821_j82394652606605_1_alg».proof.Proof.RefRead
import proofs.«141821_j82394652606605_1_alg».proof.Proof.Spec

noncomputable section

namespace Cert.ReferenceIdeal.RefValue

open Cert.ReferenceIdeal Cert.ReferenceIdeal.ReadP Idealize.ShloMosaic Idealize.ShloMosaic.ValueIdx Cert.Mlp

/-! ## The two scalar spellings -/

/-- silu with the logistic function written as a quotient of float ones. -/
theorem silu_stage (z : Ideal .f32) :
    FloatOps.mulf z (FloatOps.hostDivf (FloatOps.ofBits .f32 0x3F800000#32)
      (FloatOps.addf (FloatOps.ofBits .f32 0x3F800000#32) (FloatOps.hostUnary .exp (FloatOps.hostNegf z)))) = silu z := by
  show z * Ideal.div (Ideal.ofBits .f32 0x3F800000#32) (Ideal.ofBits .f32 0x3F800000#32 + Ideal.exp (-z)) = silu z
  rw [ofBits_one_f32]
  rfl

/-- softplus with its guard, on the host. -/
theorem softplus_stage (x : Ideal .f32) :
    Scalar.select
        (FloatOps.cmpf .une (FloatOps.subf x (FloatOps.ofBits .f32 0x00000000#32)) (FloatOps.subf x (FloatOps.ofBits .f32 0x00000000#32)))
        (FloatOps.addf x (FloatOps.ofBits .f32 0x00000000#32))
        (FloatOps.addf (FloatOps.maximumf x (FloatOps.ofBits .f32 0x00000000#32))
          (FloatOps.hostUnary .log1p (FloatOps.hostUnary .exp (FloatOps.hostNegf (FloatOps.hostAbsf
            (FloatOps.subf x (FloatOps.ofBits .f32 0x00000000#32))))))) = softplus x := by
  show Scalar.select
        (Ideal.cmp .une (x - Ideal.ofBits .f32 0x00000000#32) (x - Ideal.ofBits .f32 0x00000000#32))
        (x + Ideal.ofBits .f32 0x00000000#32)
        (max x (Ideal.ofBits .f32 0x00000000#32) + Ideal.log1p (Ideal.exp (-(max (x - Ideal.ofBits .f32 0x00000000#32)
          (-(x - Ideal.ofBits .f32 0x00000000#32)))))) = softplus x
  rw [Ideal.ofBits_zero_f32]
  exact softplus_of_neg x

section Stages

variable (x0 : (⟨S5x65536x38, .f32⟩ : BufTy).Contents (Elt Ideal)) (x1 : (⟨S5x38x200, .f32⟩ : BufTy).Contents (Elt Ideal)) (x2 : (⟨S5x1x200, .f32⟩ : BufTy).Contents (Elt Ideal))
  (x3 : (⟨S5x200x200, .f32⟩ : BufTy).Contents (Elt Ideal)) (x4 : (⟨S5x1x200, .f32⟩ : BufTy).Contents (Elt Ideal)) (x5 : (⟨S5x200x200, .f32⟩ : BufTy).Contents (Elt Ideal)) (x6 : (⟨S5x1x200, .f32⟩ : BufTy).Contents (Elt Ideal))
  (x7 : (⟨S5x200x200, .f32⟩ : BufTy).Contents (Elt Ideal)) (x8 : (⟨S5x1x200, .f32⟩ : BufTy).Contents (Elt Ideal)) (x9 : (⟨S5x200x62, .f32⟩ : BufTy).Contents (Elt Ideal)) (x10 : (⟨S5x1x62, .f32⟩ : BufTy).Contents (Elt Ideal))
  (x11 x12 : (⟨S1x31, .f32⟩ : BufTy).Contents (Elt Ideal))

/-! ## The hidden layers -/

/-- Hidden layer 1, before silu: the affine layer on the previous layer's row. -/
theorem pre1 (e : Fin 5) (r : Fin 65536) (o : Fin 200) :
    val_main_v2 (F := Ideal) x0 x1 x2 (ix3 e r o) = affineLayer (row x0 e r) (mat x1 e) (vec x2 e) o := by
  rw [val_main_v2_apply, val_main_v0_apply, val_main_v1_apply]
  have e1 : ∀ k, lidx_main_v0 (ix3 e r o) k = ix3 e r k := fun k =>
    funext fun a => by match a with | ⟨0, _⟩ => rfl | ⟨1, _⟩ => rfl | ⟨2, _⟩ => rfl
  have e2 : ∀ k, ridx_main_v0 (ix3 e r o) k = ix3 e k o := fun k =>
    funext fun a => by match a with | ⟨0, _⟩ => rfl | ⟨1, _⟩ => rfl | ⟨2, _⟩ => rfl
  have e3 : idx_main_v1 (ix3 e r o) = ix3 e (0 : Fin 1) o :=
    funext fun a => by match a with | ⟨0, _⟩ => rfl | ⟨1, _⟩ => rfl | ⟨2, _⟩ => rfl
  simp only [e1, e2, e3]
  rfl

/-- Hidden layer 1: silu of it, spelt with a quotient. -/
theorem act1 (e : Fin 5) (r : Fin 65536) (o : Fin 200) :
    val_main_v3 (F := Ideal) x0 x1 x2 (ix3 e r o) = hiddenLayer (row x0 e r) (mat x1 e) (vec x2 e) o := by
  rw [val_main_v3_apply, val_main_call0_v5_apply, val_main_call0_v4_apply, val_main_call0_cst_0_apply,
    val_main_call0_v3_apply, val_main_call0_v2_apply, val_main_call0_cst_apply, val_main_call0_v1_apply,
    val_main_call0_v0_apply, pre1]
  exact silu_stage _

/-- Hidden layer 2, before silu: the affine layer on the previous layer's row. -/
theorem pre2 (e : Fin 5) (r : Fin 65536) (o : Fin 200) :
    val_main_v6 (F := Ideal) x0 x1 x2 x3 x4 (ix3 e r o) = affineLayer (hiddenLayer (row x0 e r) (mat x1 e) (vec x2 e)) (mat x3 e) (vec x4 e) o := by
  rw [val_main_v6_apply, val_main_v4_apply, val_main_v5_apply]
  have e1 : ∀ k, lidx_main_v4 (ix3 e r o) k = ix3 e r k := fun k =>
    funext fun a => by match a with | ⟨0, _⟩ => rfl | ⟨1, _⟩ => rfl | ⟨2, _⟩ => rfl
  have e2 : ∀ k, ridx_main_v4 (ix3 e r o) k = ix3 e k o := fun k =>
    funext fun a => by match a with | ⟨0, _⟩ => rfl | ⟨1, _⟩ => rfl | ⟨2, _⟩ => rfl
  have e3 : idx_main_v5 (ix3 e r o) = ix3 e (0 : Fin 1) o :=
    funext fun a => by match a with | ⟨0, _⟩ => rfl | ⟨1, _⟩ => rfl | ⟨2, _⟩ => rfl
  simp only [e1, e2, e3, act1]
  rfl

/-- Hidden layer 2: silu of it, spelt with a quotient. -/
theorem act2 (e : Fin 5) (r : Fin 65536) (o : Fin 200) :
    val_main_v7 (F := Ideal) x0 x1 x2 x3 x4 (ix3 e r o) = hiddenLayer (hiddenLayer (row x0 e r) (mat x1 e) (vec x2 e)) (mat x3 e) (vec x4 e) o := by
  rw [val_main_v7_apply, val_main_call1_v5_apply, val_main_call1_v4_apply, val_main_call1_cst_0_apply,
    val_main_call1_v3_apply, val_main_call1_v2_apply, val_main_call1_cst_apply, val_main_call1_v1_apply,
    val_main_call1_v0_apply, pre2]
  exact silu_stage _

/-- Hidden layer 3, before silu: the affine layer on the previous layer's row. -/
theorem pre3 (e : Fin 5) (r : Fin 65536) (o : Fin 200) :
    val_main_v10 (F := Ideal) x0 x1 x2 x3 x4 x5 x6 (ix3 e r o) = affineLayer (hiddenLayer (hiddenLayer (row x0 e r) (mat x1 e) (vec x2 e)) (mat x3 e) (vec x4 e)) (mat x5 e) (vec x6 e) o := by
  rw [val_main_v10_apply, val_main_v8_apply, val_main_v9_apply]
  have e1 : ∀ k, lidx_main_v8 (ix3 e r o) k = ix3 e r k := fun k =>
    funext fun a => by match a with | ⟨0, _⟩ => rfl | ⟨1, _⟩ => rfl | ⟨2, _⟩ => rfl
  have e2 : ∀ k, ridx_main_v8 (ix3 e r o) k = ix3 e k o := fun k =>
    funext fun a => by match a with | ⟨0, _⟩ => rfl | ⟨1, _⟩ => rfl | ⟨2, _⟩ => rfl
  have e3 : idx_main_v9 (ix3 e r o) = ix3 e (0 : Fin 1) o :=
    funext fun a => by match a with | ⟨0, _⟩ => rfl | ⟨1, _⟩ => rfl | ⟨2, _⟩ => rfl
  simp only [e1, e2, e3, act2]
  rfl

/-- Hidden layer 3: silu of it, spelt with a quotient. -/
theorem act3 (e : Fin 5) (r : Fin 65536) (o : Fin 200) :
    val_main_v11 (F := Ideal) x0 x1 x2 x3 x4 x5 x6 (ix3 e r o) = hiddenLayer (hiddenLayer (hiddenLayer (row x0 e r) (mat x1 e) (vec x2 e)) (mat x3 e) (vec x4 e)) (mat x5 e) (vec x6 e) o := by
  rw [val_main_v11_apply, val_main_call2_v5_apply, val_main_call2_v4_apply, val_main_call2_cst_0_apply,
    val_main_call2_v3_apply, val_main_call2_v2_apply, val_main_call2_cst_apply, val_main_call2_v1_apply,
    val_main_call2_v0_apply, pre3]
  exact silu_stage _

/-- Hidden layer 4, before silu: the affine layer on the previous layer's row. -/
theorem pre4 (e : Fin 5) (r : Fin 65536) (o : Fin 200) :
    val_main_v14 (F := Ideal) x0 x1 x2 x3 x4 x5 x6 x7 x8 (ix3 e r o) = affineLayer (hiddenLayer (hiddenLayer (hiddenLayer (row x0 e r) (mat x1 e) (vec x2 e)) (mat x3 e) (vec x4 e)) (mat x5 e) (vec x6 e)) (mat x7 e) (vec x8 e) o := by
  rw [val_main_v14_apply, val_main_v12_apply, val_main_v13_apply]
  have e1 : ∀ k, lidx_main_v12 (ix3 e r o) k = ix3 e r k := fun k =>
    funext fun a => by match a with | ⟨0, _⟩ => rfl | ⟨1, _⟩ => rfl | ⟨2, _⟩ => rfl
  have e2 : ∀ k, ridx_main_v12 (ix3 e r o) k = ix3 e k o := fun k =>
    funext fun a => by match a with | ⟨0, _⟩ => rfl | ⟨1, _⟩ => rfl | ⟨2, _⟩ => rfl
  have e3 : idx_main_v13 (ix3 e r o) = ix3 e (0 : Fin 1) o :=
    funext fun a => by match a with | ⟨0, _⟩ => rfl | ⟨1, _⟩ => rfl | ⟨2, _⟩ => rfl
  simp only [e1, e2, e3, act3]
  rfl

/-- Hidden layer 4: silu of it, spelt with a quotient. -/
theorem act4 (e : Fin 5) (r : Fin 65536) (o : Fin 200) :
    val_main_v15 (F := Ideal) x0 x1 x2 x3 x4 x5 x6 x7 x8 (ix3 e r o) = hiddenLayer (hiddenLayer (hiddenLayer (hiddenLayer (row x0 e r) (mat x1 e) (vec x2 e)) (mat x3 e) (vec x4 e)) (mat x5 e) (vec x6 e)) (mat x7 e) (vec x8 e) o := by
  rw [val_main_v15_apply, val_main_call3_v5_apply, val_main_call3_v4_apply, val_main_call3_cst_0_apply,
    val_main_call3_v3_apply, val_main_call3_v2_apply, val_main_call3_cst_apply, val_main_call3_v1_apply,
    val_main_call3_v0_apply, pre4]
  exact silu_stage _

/-! ## The output layer and its two slices -/

/-- The raw outputs at (e, r, o). -/
theorem raw (e : Fin 5) (r : Fin 65536) (o : Fin 62) :
    val_main_v18 (F := Ideal) x0 x1 x2 x3 x4 x5 x6 x7 x8 x9 x10 (ix3 e r o)
      = outAt x0 x1 x2 x3 x4 x5 x6 x7 x8 x9 x10 e r o := by
  rw [val_main_v18_apply, val_main_v16_apply, val_main_v17_apply]
  have e1 : ∀ k, lidx_main_v16 (ix3 e r o) k = ix3 e r k := fun k =>
    funext fun a => by match a with | ⟨0, _⟩ => rfl | ⟨1, _⟩ => rfl | ⟨2, _⟩ => rfl
  have e2 : ∀ k, ridx_main_v16 (ix3 e r o) k = ix3 e k o := fun k =>
    funext fun a => by match a with | ⟨0, _⟩ => rfl | ⟨1, _⟩ => rfl | ⟨2, _⟩ => rfl
  have e3 : idx_main_v17 (ix3 e r o) = ix3 e (0 : Fin 1) o :=
    funext fun a => by match a with | ⟨0, _⟩ => rfl | ⟨1, _⟩ => rfl | ⟨2, _⟩ => rfl
  simp only [e1, e2, e3, act4]
  rfl

/-- The first result: the mean. -/
theorem mean_eq : val_main_v19 (F := Ideal) x0 x1 x2 x3 x4 x5 x6 x7 x8 x9 x10
    = meanArr x0 x1 x2 x3 x4 x5 x6 x7 x8 x9 x10 := by
  funext i
  obtain ⟨e, r, j, rfl⟩ : ∃ (e : Fin 5) (r : Fin 65536) (j : Fin 31), i = ix3 e r j := ⟨i 0, i 1, i 2, eq_ix3 i⟩
  rw [val_main_v19_apply]
  have e1 : idx_main_v19 (ix3 e r j) = ix3 e r (⟨j.val, by omega⟩ : Fin 62) :=
    funext fun a => by match a with | ⟨0, _⟩ => rfl | ⟨1, _⟩ => rfl | ⟨2, _⟩ => rfl
  rw [e1, raw]
  rfl

/-- A bound row broadcast over members and rows, at (e, r, j): its entry j. -/
theorem bound_hi (e : Fin 5) (r : Fin 65536) (j : Fin 31) :
    val_main_v22 (F := Ideal) x11 (ix3 e r j) = x11 (ix2 (0 : Fin 1) j) := by
  rw [val_main_v22_apply, val_main_v21_apply]
  exact congrArg x11 (funext fun a => by match a with | ⟨0, _⟩ => rfl | ⟨1, _⟩ => rfl)

theorem bound_hi' (e : Fin 5) (r : Fin 65536) (j : Fin 31) :
    val_main_v26 (F := Ideal) x11 (ix3 e r j) = x11 (ix2 (0 : Fin 1) j) := by
  rw [val_main_v26_apply, val_main_v25_apply]
  exact congrArg x11 (funext fun a => by match a with | ⟨0, _⟩ => rfl | ⟨1, _⟩ => rfl)

theorem bound_lo (e : Fin 5) (r : Fin 65536) (j : Fin 31) :
    val_main_v29 (F := Ideal) x12 (ix3 e r j) = x12 (ix2 (0 : Fin 1) j) := by
  rw [val_main_v29_apply, val_main_v28_apply]
  exact congrArg x12 (funext fun a => by match a with | ⟨0, _⟩ => rfl | ⟨1, _⟩ => rfl)

theorem bound_lo' (e : Fin 5) (r : Fin 65536) (j : Fin 31) :
    val_main_v33 (F := Ideal) x12 (ix3 e r j) = x12 (ix2 (0 : Fin 1) j) := by
  rw [val_main_v33_apply, val_main_v32_apply]
  exact congrArg x12 (funext fun a => by match a with | ⟨0, _⟩ => rfl | ⟨1, _⟩ => rfl)

/-- The raw log-variance at (e, r, j): output column 31 + j. -/
theorem rawLogvar (e : Fin 5) (r : Fin 65536) (j : Fin 31) :
    val_main_v20 (F := Ideal) x0 x1 x2 x3 x4 x5 x6 x7 x8 x9 x10 (ix3 e r j)
      = outAt x0 x1 x2 x3 x4 x5 x6 x7 x8 x9 x10 e r ⟨31 + j.val, by omega⟩ := by
  rw [val_main_v20_apply]
  have e1 : idx_main_v20 (ix3 e r j) = ix3 e r (⟨31 + j.val, by omega⟩ : Fin 62) :=
    funext fun a => by match a with | ⟨0, _⟩ => rfl | ⟨1, _⟩ => rfl | ⟨2, _⟩ => rfl
  rw [e1, raw]

/-- The first softplus: of hi - v. -/
theorem clampUpper (e : Fin 5) (r : Fin 65536) (j : Fin 31) :
    val_main_v24 (F := Ideal) x0 x1 x2 x3 x4 x5 x6 x7 x8 x9 x10 x11 (ix3 e r j)
      = softplus (x11 (ix2 (0 : Fin 1) j) - outAt x0 x1 x2 x3 x4 x5 x6 x7 x8 x9 x10 e r ⟨31 + j.val, by omega⟩) := by
  rw [val_main_v24_apply, val_main_call4_v4_apply, val_main_call4_v6_apply, val_main_call4_v11_apply,
    val_main_call4_v10_apply, val_main_call4_v9_apply, val_main_call4_v8_apply, val_main_call4_v7_apply,
    val_main_call4_v3_apply, val_main_call4_v1_apply, val_main_call4_v0_apply, val_main_call4_v2_apply,
    val_main_call4_v5_apply, val_main_call4_cst_apply, val_main_v23_apply, bound_hi, rawLogvar]
  exact softplus_stage _

/-- The second softplus: of (hi - softplus (hi - v)) - lo. -/
theorem clampLower (e : Fin 5) (r : Fin 65536) (j : Fin 31) :
    val_main_v31 (F := Ideal) x0 x1 x2 x3 x4 x5 x6 x7 x8 x9 x10 x11 x12 (ix3 e r j)
      = softplus ((x11 (ix2 (0 : Fin 1) j)
          - softplus (x11 (ix2 (0 : Fin 1) j) - outAt x0 x1 x2 x3 x4 x5 x6 x7 x8 x9 x10 e r ⟨31 + j.val, by omega⟩))
          - x12 (ix2 (0 : Fin 1) j)) := by
  rw [val_main_v31_apply, val_main_call5_v4_apply, val_main_call5_v6_apply, val_main_call5_v11_apply,
    val_main_call5_v10_apply, val_main_call5_v9_apply, val_main_call5_v8_apply, val_main_call5_v7_apply,
    val_main_call5_v3_apply, val_main_call5_v1_apply, val_main_call5_v0_apply, val_main_call5_v2_apply,
    val_main_call5_v5_apply, val_main_call5_cst_apply, val_main_v30_apply, val_main_v27_apply, bound_hi', bound_lo,
    clampUpper]
  exact softplus_stage _

/-- The second result: the clamped log-variance. -/
theorem logvar_eq : val_main_v34 (F := Ideal) x0 x1 x2 x3 x4 x5 x6 x7 x8 x9 x10 x11 x12
    = logvarArr x0 x1 x2 x3 x4 x5 x6 x7 x8 x9 x10 x11 x12 := by
  funext i
  obtain ⟨e, r, j, rfl⟩ : ∃ (e : Fin 5) (r : Fin 65536) (j : Fin 31), i = ix3 e r j := ⟨i 0, i 1, i 2, eq_ix3 i⟩
  rw [val_main_v34_apply, bound_lo', clampLower]
  rfl

end Stages

end Cert.ReferenceIdeal.RefValue

end
-- ==== Proof.lean ====
/-
  The two programs compute the same two arrays over the extended reals.

  Both are an ensemble of five multilayer perceptrons applied to 65536 input rows each: four hidden layers
  h ↦ silu (h · W + b), an affine output layer of width 62 whose first 31 columns are the mean and whose last 31
  columns are a raw log-variance, clamped softly below an upper and above a lower bound row
  (Proof/Spec.lean states this once, for one row).

  The tiled program works on a grid of 5 · 16 points; a point computes the 4096 rows of one member's row block from
  that member's parameter blocks (Proof/KernelRow.lean reads the body at an entry, Proof/KernelArray.lean and Proof/KernelFinal.lean put
  the 80 blocks together).  The whole-array program applies each layer to all rows at once (Proof/RefRow.lean reads its
  stages at an entry).  The two agree stage by stage: a matrix product into a zero accumulator and a batched
  product are the same sum over the contracted axis; the change to the matrix unit's input format is the identity
  on the extended reals; the logistic function is by definition 1 / (1 + e^{-z}); the guard x ≠ x in softplus is
  false for every extended real in either spelling, and 0 - |x| = -|x|.  No step uses that an input is finite.

  Each program runs to completion without a fault and leaves its arguments unchanged: for the tiled programs this
  is the generated frame, for the whole-array program its run with the results dropped.  The idealization of the
  tiled program rewrote nothing, so there is nothing to preserve.
-/
import proofs.«141821_j82394652606605_1_alg».proof.Defs
import proofs.«141821_j82394652606605_1_alg».proof.Proof.Gen.Kernel
import proofs.«141821_j82394652606605_1_alg».proof.Proof.Gen.Kernel.Skeleton
import proofs.«141821_j82394652606605_1_alg».proof.Proof.Gen.Kernel.Launch
import proofs.«141821_j82394652606605_1_alg».proof.Proof.Gen.Kernel.Points
import proofs.«141821_j82394652606605_1_alg».proof.Proof.Gen.Kernel.Frame
import proofs.«141821_j82394652606605_1_alg».proof.Proof.Gen.KernelIdeal
import proofs.«141821_j82394652606605_1_alg».proof.Proof.Gen.KernelIdeal.Skeleton
import proofs.«141821_j82394652606605_1_alg».proof.Proof.Gen.KernelIdeal.Launch
import proofs.«141821_j82394652606605_1_alg».proof.Proof.Gen.KernelIdeal.Points
import proofs.«141821_j82394652606605_1_alg».proof.Proof.Gen.KernelIdeal.Frame
import proofs.«141821_j82394652606605_1_alg».proof.Proof.Gen.ReferenceIdeal
import proofs.«141821_j82394652606605_1_alg».proof.Proof.Gen.Pre_finite_inputs
import proofs.«141821_j82394652606605_1_alg».proof.Proof.KernelFinal
import proofs.«141821_j82394652606605_1_alg».proof.Proof.RefRun
import proofs.«141821_j82394652606605_1_alg».proof.Proof.RefRow
import Idealize.ShloMosaic.Adequacy
import Idealize.ShloMosaic.Init

noncomputable section

namespace Cert.Proof

open Idealize.ShloMosaic Idealize.SL.Sem

/-- The tiled program, word level: the generated frame. -/
theorem frame_kernel : Cert.frame_Kernel := fun m ρ _ => Cert.Kernel.Gen.frame m ρ

/-- The tiled program over the extended reals: the generated frame. -/
theorem frame_kernelIdeal : Cert.frame_KernelIdeal := fun m ρ _ => Cert.KernelIdeal.Gen.frame m ρ

/-- The whole-array program: its run, the two results dropped. -/
theorem frame_referenceIdeal : Cert.frame_ReferenceIdeal := fun m ρ _ =>
  (θ_run Cert.ReferenceIdeal.defs _ _).mono (fun _ h c => (h c).2.2)
    (Cert.ReferenceIdeal.ValueP.run (F := Ideal) m ρ)

/-- Both programs end with the mean and the log-variance arrays of Spec, of arguments that agree. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono
    (fun _ h c => ⟨(h c).1.trans ?_, (h c).2.1.trans ?_, (h c).2.2⟩)
    (Cert.ReferenceIdeal.ValueP.run (F := Ideal) m' ρ')
  · obtain ⟨a0, a1, a2, a3, a4, a5, a6, a7, a8, a9, a10, a11, a12⟩ := hagree c
    rw [Cert.ReferenceIdeal.RefValue.mean_eq, a0, a1, a2, a3, a4, a5, a6, a7, a8, a9, a10]
  · obtain ⟨a0, a1, a2, a3, a4, a5, a6, a7, a8, a9, a10, a11, a12⟩ := hagree c
    rw [Cert.ReferenceIdeal.RefValue.logvar_eq, a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
